-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v116)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v116) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v132) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part2 {F : FTy → Type} [FloatOps F] (main_arg8 : FVec F S64x64 .f32) (main_arg9 : FVec F S64 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg5 : FVec F S64 .f32) (main_arg6 : FVec F S64x64 .f32) (main_arg7 : FVec F S64 .f32) (main_arg8 : FVec F S64x64 .f32) (main_arg9 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x1600000 32) (main_arg2 : FVec F S128x64 .f32) (main_arg3 : FVec F S64 .f32) (main_arg4 : FVec F S64x64 .f32) (main_arg5 : FVec F S64 .f32) (main_arg6 : FVec F S64x64 .f32) (main_arg7 : FVec F S64 .f32) (main_arg8 : FVec F S64x64 .f32) (main_arg9 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1x64 : Shape := ⟨2, ![1, 64]⟩
abbrev S100000x64 : Shape := ⟨2, ![100000, 64]⟩
abbrev S2000x128 : Shape := ⟨2, ![2000, 128]⟩
abbrev S2000x64 : Shape := ⟨2, ![2000, 64]⟩
abbrev S1600000x64 : Shape := ⟨2, ![1600000, 64]⟩
abbrev S100000x1 : Shape := ⟨2, ![100000, 1]⟩
abbrev S2000x1 : Shape := ⟨2, ![2000, 1]⟩
abbrev S2000 : Shape := ⟨1, ![2000]⟩

abbrev nBuf : Space → Nat
  | .hbm => 154
  | .vmem => 55
  | .smem => 0
  | _ => 0

abbrev hbmTy0_0 (i : Nat) : BufTy := match i % 128 with
  | 0 => ⟨S100000x128, .f32⟩
  | 1 => ⟨S2x1600000, .i32⟩
  | 2 => ⟨S128x64, .f32⟩
  | 3 => ⟨S64, .f32⟩
  | 4 => ⟨S64x64, .f32⟩
  | 5 => ⟨S64, .f32⟩
  | 6 => ⟨S64x64, .f32⟩
  | 7 => ⟨S64, .f32⟩
  | 8 => ⟨S64x64, .f32⟩
  | 9 => ⟨S64, .f32⟩
  | 10 => ⟨S1x1600000, .i32⟩
  | 11 => ⟨S1600000, .i32⟩
  | 12 => ⟨S1x1600000, .i32⟩
  | 13 => ⟨S1600000, .i32⟩
  | 14 => ⟨S_, .f32⟩
  | 15 => ⟨S1600000, .f32⟩
  | 16 => ⟨S_, .f32⟩
  | 17 => ⟨S100000, .f32⟩
  | 18 => ⟨S1600000x1, .i32⟩
  | 19 => ⟨S100000, .f32⟩
  | 20 => ⟨S_, .f32⟩
  | 21 => ⟨S100000, .f32⟩
  | 22 => ⟨S100000, .f32⟩
  | 23 => ⟨S100000, .f32⟩
  | 24 => ⟨S100000, .f32⟩
  | 25 => ⟨S1x64, .f32⟩
  | 26 => ⟨S100000x64, .f32⟩
  | 27 => ⟨S_, .f32⟩
  | 28 => ⟨S64, .f32⟩
  | 29 => ⟨S1x64, .f32⟩
  | 30 => ⟨S100000x64, .f32⟩
  | 31 => ⟨S_, .i32⟩
  | 32 => ⟨S1600000, .i32⟩
  | 33 => ⟨S1600000, .i1⟩
  | 34 => ⟨S_, .i32⟩
  | 35 => ⟨S1600000, .i32⟩
  | 36 => ⟨S1600000, .i32⟩
  | 37 => ⟨S1600000, .i32⟩
  | 38 => ⟨S1600000x1, .i32⟩
  | 39 => ⟨S1600000, .f32⟩
  | 40 => ⟨S_, .i32⟩
  | 41 => ⟨S1600000, .i32⟩
  | 42 => ⟨S1600000, .i1⟩
  | 43 => ⟨S_, .i32⟩
  | 44 => ⟨S1600000, .i32⟩
  | 45 => ⟨S1600000, .i32⟩
  | 46 => ⟨S1600000, .i32⟩
  | 47 => ⟨S1600000x1, .i32⟩
  | 48 => ⟨S1600000, .f32⟩
  | 49 => ⟨S1600000, .f32⟩
  | 50 => ⟨S_, .i32⟩
  | 51 => ⟨S1600000, .i32⟩
  | 52 => ⟨S1600000, .i1⟩
  | 53 => ⟨S_, .i32⟩
  | 54 => ⟨S1600000, .i32⟩
  | 55 => ⟨S1600000, .i32⟩
  | 56 => ⟨S1600000, .i32⟩
  | 57 => ⟨S1600000x1, .i32⟩
  | 58 => ⟨S1600000x64, .f32⟩
  | 59 => ⟨S1600000x1, .f32⟩
  | 60 => ⟨S1600000x64, .f32⟩
  | 61 => ⟨S1600000x64, .f32⟩
  | 62 => ⟨S_, .f32⟩
  | 63 => ⟨S100000x64, .f32⟩
  | 64 => ⟨S1600000x1, .i32⟩
  | 65 => ⟨S100000x64, .f32⟩
  | 66 => ⟨S1x64, .f32⟩
  | 67 => ⟨S100000x1, .f32⟩
  | 68 => ⟨S100000x64, .f32⟩
  | 69 => ⟨S_, .f32⟩
  | 70 => ⟨S64, .f32⟩
  | 71 => ⟨S1x64, .f32⟩
  | 72 => ⟨S100000x64, .f32⟩
  | 73 => ⟨S_, .i32⟩
  | 74 => ⟨S1600000, .i32⟩
  | 75 => ⟨S1600000, .i1⟩
  | 76 => ⟨S_, .i32⟩
  | 77 => ⟨S1600000, .i32⟩
  | 78 => ⟨S1600000, .i32⟩
  | 79 => ⟨S1600000, .i32⟩
  | 80 => ⟨S1600000x1, .i32⟩
  | 81 => ⟨S1600000, .f32⟩
  | 82 => ⟨S_, .i32⟩
  | 83 => ⟨S1600000, .i32⟩
  | 84 => ⟨S1600000, .i1⟩
  | 85 => ⟨S_, .i32⟩
  | 86 => ⟨S1600000, .i32⟩
  | 87 => ⟨S1600000, .i32⟩
  | 88 => ⟨S1600000, .i32⟩
  | 89 => ⟨S1600000x1, .i32⟩
  | 90 => ⟨S1600000, .f32⟩
  | 91 => ⟨S1600000, .f32⟩
  | 92 => ⟨S_, .i32⟩
  | 93 => ⟨S1600000, .i32⟩
  | 94 => ⟨S1600000, .i1⟩
  | 95 => ⟨S_, .i32⟩
  | 96 => ⟨S1600000, .i32⟩
  | 97 => ⟨S1600000, .i32⟩
  | 98 => ⟨S1600000, .i32⟩
  | 99 => ⟨S1600000x1, .i32⟩
  | 100 => ⟨S1600000x64, .f32⟩
  | 101 => ⟨S1600000x1, .f32⟩
  | 102 => ⟨S1600000x64, .f32⟩
  | 103 => ⟨S1600000x64, .f32⟩
  | 104 => ⟨S_, .f32⟩
  | 105 => ⟨S100000x64, .f32⟩
  | 106 => ⟨S1600000x1, .i32⟩
  | 107 => ⟨S100000x64, .f32⟩
  | 108 => ⟨S1x64, .f32⟩
  | 109 => ⟨S100000x1, .f32⟩
  | 110 => ⟨S100000x64, .f32⟩
  | 111 => ⟨S_, .f32⟩
  | 112 => ⟨S64, .f32⟩
  | 113 => ⟨S1x64, .f32⟩
  | 114 => ⟨S100000x64, .f32⟩
  | 115 => ⟨S_, .i32⟩
  | 116 => ⟨S1600000, .i32⟩
  | 117 => ⟨S1600000, .i1⟩
  | 118 => ⟨S_, .i32⟩
  | 119 => ⟨S1600000, .i32⟩
  | 120 => ⟨S1600000, .i32⟩
  | 121 => ⟨S1600000, .i32⟩
  | 122 => ⟨S1600000x1, .i32⟩
  | 123 => ⟨S1600000, .f32⟩
  | 124 => ⟨S_, .i32⟩
  | 125 => ⟨S1600000, .i32⟩
  | 126 => ⟨S1600000, .i1⟩
  | 127 => ⟨S_, .i32⟩
  | _ => ⟨S100000x128, .f32⟩

abbrev hbmTy0_1 (i : Nat) : BufTy := match i % 128 with
  | 0 => ⟨S1600000, .i32⟩
  | 1 => ⟨S1600000, .i32⟩
  | 2 => ⟨S1600000, .i32⟩
  | 3 => ⟨S1600000x1, .i32⟩
  | 4 => ⟨S1600000, .f32⟩
  | 5 => ⟨S1600000, .f32⟩
  | 6 => ⟨S_, .i32⟩
  | 7 => ⟨S1600000, .i32⟩
  | 8 => ⟨S1600000, .i1⟩
  | 9 => ⟨S_, .i32⟩
  | 10 => ⟨S1600000, .i32⟩
  | 11 => ⟨S1600000, .i32⟩
  | 12 => ⟨S1600000, .i32⟩
  | 13 => ⟨S1600000x1, .i32⟩
  | 14 => ⟨S1600000x64, .f32⟩
  | 15 => ⟨S1600000x1, .f32⟩
  | 16 => ⟨S1600000x64, .f32⟩
  | 17 => ⟨S1600000x64, .f32⟩
  | 18 => ⟨S_, .f32⟩
  | 19 => ⟨S100000x64, .f32⟩
  | 20 => ⟨S1600000x1, .i32⟩
  | 21 => ⟨S100000x64, .f32⟩
  | 22 => ⟨S1x64, .f32⟩
  | 23 => ⟨S100000x1, .f32⟩
  | 24 => ⟨S100000x64, .f32⟩
  | 25 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x64, .f32⟩
  | .local _ .vmem, ⟨3, _⟩ => ⟨S1x64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S2000x64, .f32⟩
  | .local _ .vmem, ⟨8, _⟩ => ⟨S64x64, .f32⟩
  | .local _ .vmem, ⟨9, _⟩ => ⟨S1x64, .f32⟩
  | .local _ .vmem, ⟨10, _⟩ => ⟨S2000x64, .f32⟩
  | .local _ .vmem, ⟨11, _⟩ => ⟨S2000x64, .f32⟩
  | .local _ .vmem, ⟨12, _⟩ => ⟨S2000x64, .f32⟩
  | .local _ .vmem, ⟨13, _⟩ => ⟨S2000x64, .f32⟩
  | .local _ .vmem, ⟨14, _⟩ => ⟨S2000x64, .f32⟩
  | .local _ .vmem, ⟨15, _⟩ => ⟨S2000x64, .f32⟩
  | .local _ .vmem, ⟨16, _⟩ => ⟨S2000x1, .f32⟩
  | .local _ .vmem, ⟨17, _⟩ => ⟨S2000x1, .f32⟩
  | .local _ .vmem, ⟨18, _⟩ => ⟨S1x64, .f32⟩
  | .local _ .vmem, ⟨19, _⟩ => ⟨S2000x64, .f32⟩
  | .local _ .vmem, ⟨20, _⟩ => ⟨S2000x64, .f32⟩
  | .local _ .vmem, ⟨21, _⟩ => ⟨S2000x64, .f32⟩
  | .local _ .vmem, ⟨22, _⟩ => ⟨S2000x64, .f32⟩
  | .local _ .vmem, ⟨23, _⟩ => ⟨S64x64, .f32⟩
  | .local _ .vmem, ⟨24, _⟩ => ⟨S1x64, .f32⟩
  | .local _ .vmem, ⟨25, _⟩ => ⟨S2000x64, .f32⟩
  | .local _ .vmem, ⟨26, _⟩ => ⟨S2000x64, .f32⟩
  | .local _ .vmem, ⟨27, _⟩ => ⟨S2000x64, .f32⟩
  | .local _ .vmem, ⟨28, _⟩ => ⟨S2000x64, .f32⟩
  | .local _ .vmem, ⟨29, _⟩ => ⟨S2000x64, .f32⟩
  | .local _ .vmem, ⟨30, _⟩ => ⟨S2000x64, .f32⟩
  | .local _ .vmem, ⟨31, _⟩ => ⟨S2000x1, .f32⟩
  | .local _ .vmem, ⟨32, _⟩ => ⟨S2000x1, .f32⟩
  | .local _ .vmem, ⟨33, _⟩ => ⟨S1x64, .f32⟩
  | .local _ .vmem, ⟨34, _⟩ => ⟨S2000x64, .f32⟩
  | .local _ .vmem, ⟨35, _⟩ => ⟨S2000x64, .f32⟩
  | .local _ .vmem, ⟨36, _⟩ => ⟨S2000x64, .f32⟩
  | .local _ .vmem, ⟨37, _⟩ => ⟨S2000x64, .f32⟩
  | .local _ .vmem, ⟨38, _⟩ => ⟨S64x64, .f32⟩
  | .local _ .vmem, ⟨39, _⟩ => ⟨S1x64, .f32⟩
  | .local _ .vmem, ⟨40, _⟩ => ⟨S2000x64, .f32⟩
  | .local _ .vmem, ⟨41, _⟩ => ⟨S2000x64, .f32⟩
  | .local _ .vmem, ⟨42, _⟩ => ⟨S2000x64, .f32⟩
  | .local _ .vmem, ⟨43, _⟩ => ⟨S2000x64, .f32⟩
  | .local _ .vmem, ⟨44, _⟩ => ⟨S2000x64, .f32⟩
  | .local _ .vmem, ⟨45, _⟩ => ⟨S2000x64, .f32⟩
  | .local _ .vmem, ⟨46, _⟩ => ⟨S2000x1, .f32⟩
  | .local _ .vmem, ⟨47, _⟩ => ⟨S2000x1, .f32⟩
  | .local _ .vmem, ⟨48, _⟩ => ⟨S1x64, .f32⟩
  | .local _ .vmem, ⟨49, _⟩ => ⟨S2000x64, .f32⟩
  | .local _ .vmem, ⟨50, _⟩ => ⟨S2000x64, .f32⟩
  | .local _ .vmem, ⟨51, _⟩ => ⟨S2000x64, .f32⟩
  | .local _ .vmem, ⟨52, _⟩ => ⟨S2000x64, .f32⟩
  | .local _ .vmem, ⟨53, _⟩ => ⟨S2000x64, .f32⟩
  | .local _ .vmem, ⟨54, _⟩ => ⟨S2000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | _, _ => false

abbrev semScoped : Fin 0 → Bool
  | ⟨_, h⟩ => absurd h (Nat.not_lt_zero _)

abbrev dmaSemScoped : Fin 55 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | _ => false

abbrev sig : RefSig :=
  ofTc nBuf bufTy 0 55 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_4 : Ref sig .tc := ⟨.hbm, 40, rfl⟩
abbrev main_v24 : Ref sig .tc := ⟨.hbm, 41, rfl⟩
abbrev main_v25 : Ref sig .tc := ⟨.hbm, 42, rfl⟩
abbrev main_c_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_9 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_c_12 : Ref sig .tc := ⟨.hbm, 82, rfl⟩
abbrev main_v58 : Ref sig .tc := ⟨.hbm, 83, rfl⟩
abbrev main_v59 : Ref sig .tc := ⟨.hbm, 84, rfl⟩
abbrev main_c_13 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_c_14 : Ref sig .tc := ⟨.hbm, 92, rfl⟩
abbrev main_v66 : Ref sig .tc := ⟨.hbm, 93, rfl⟩
abbrev main_v67 : Ref sig .tc := ⟨.hbm, 94, rfl⟩
abbrev main_c_15 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_16 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_cst_17 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_c_18 : Ref sig .tc := ⟨.hbm, 115, rfl⟩
abbrev main_v85 : Ref sig .tc := ⟨.hbm, 116, rfl⟩
abbrev main_v86 : Ref sig .tc := ⟨.hbm, 117, rfl⟩
abbrev main_c_19 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_c_20 : Ref sig .tc := ⟨.hbm, 124, rfl⟩
abbrev main_v92 : Ref sig .tc := ⟨.hbm, 125, rfl⟩
abbrev main_v93 : Ref sig .tc := ⟨.hbm, 126, rfl⟩
abbrev main_c_21 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_c_22 : Ref sig .tc := ⟨.hbm, 134, rfl⟩
abbrev main_v100 : Ref sig .tc := ⟨.hbm, 135, rfl⟩
abbrev main_v101 : Ref sig .tc := ⟨.hbm, 136, rfl⟩
abbrev main_c_23 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_cst_24 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg4_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg3_1 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg1_1 : Ref sig .tc := ⟨.vmem, 30, rfl⟩
abbrev cc4_stg2_0 : Ref sig .tc := ⟨.vmem, 31, rfl⟩
abbrev cc4_stg2_1 : Ref sig .tc := ⟨.vmem, 32, rfl⟩
abbrev cc4_stg3_0 : Ref sig .tc := ⟨.vmem, 33, rfl⟩
abbrev cc4_stg4_0 : Ref sig .tc := ⟨.vmem, 34, rfl⟩
abbrev cc4_stg4_1 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg2_0 : Ref sig .tc := ⟨.vmem, 39, rfl⟩
abbrev cc5_stg3_0 : Ref sig .tc := ⟨.vmem, 40, rfl⟩
abbrev cc5_stg3_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg1_1 : Ref sig .tc := ⟨.vmem, 45, rfl⟩
abbrev cc6_stg2_0 : Ref sig .tc := ⟨.vmem, 46, rfl⟩
abbrev cc6_stg2_1 : Ref sig .tc := ⟨.vmem, 47, rfl⟩
abbrev cc6_stg3_0 : Ref sig .tc := ⟨.vmem, 48, rfl⟩
abbrev cc6_stg4_0 : Ref sig .tc := ⟨.vmem, 49, rfl⟩
abbrev cc6_stg4_1 : Ref sig .tc := ⟨.vmem, 50, rfl⟩
abbrev cc7_stg0_0 : Ref sig .tc := ⟨.vmem, 51, rfl⟩
abbrev cc7_stg0_1 : Ref sig .tc := ⟨.vmem, 52, rfl⟩
abbrev cc7_stg1_0 : Ref sig .tc := ⟨.vmem, 53, rfl⟩
abbrev cc7_stg1_1 : Ref sig .tc := ⟨.vmem, 54, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem4_0 : DmaSem sig := 19
abbrev cc2_sem4_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem3_0 : DmaSem sig := 25
abbrev cc3_sem3_1 : DmaSem sig := 26
abbrev cc4_sem0_0 : DmaSem sig := 27
abbrev cc4_sem0_1 : DmaSem sig := 28
abbrev cc4_sem1_0 : DmaSem sig := 29
abbrev cc4_sem1_1 : DmaSem sig := 30
abbrev cc4_sem2_0 : DmaSem sig := 31
abbrev cc4_sem2_1 : DmaSem sig := 32
abbrev cc4_sem3_0 : DmaSem sig := 33
abbrev cc4_sem4_0 : DmaSem sig := 34
abbrev cc4_sem4_1 : DmaSem sig := 35
abbrev cc5_sem0_0 : DmaSem sig := 36
abbrev cc5_sem0_1 : DmaSem sig := 37
abbrev cc5_sem1_0 : DmaSem sig := 38
abbrev cc5_sem2_0 : DmaSem sig := 39
abbrev cc5_sem3_0 : DmaSem sig := 40
abbrev cc5_sem3_1 : DmaSem sig := 41
abbrev cc6_sem0_0 : DmaSem sig := 42
abbrev cc6_sem0_1 : DmaSem sig := 43
abbrev cc6_sem1_0 : DmaSem sig := 44
abbrev cc6_sem1_1 : DmaSem sig := 45
abbrev cc6_sem2_0 : DmaSem sig := 46
abbrev cc6_sem2_1 : DmaSem sig := 47
abbrev cc6_sem3_0 : DmaSem sig := 48
abbrev cc6_sem4_0 : DmaSem sig := 49
abbrev cc6_sem4_1 : DmaSem sig := 50
abbrev cc7_sem0_0 : DmaSem sig := 51
abbrev cc7_sem0_1 : DmaSem sig := 52
abbrev cc7_sem1_0 : DmaSem sig := 53
abbrev cc7_sem1_1 : DmaSem sig := 54

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S2000x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S2000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S2000x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S1x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S2000x64 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev grid7 : Pipeline.Grid := ⟨1, ![50], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S2000x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S64_S1x64 : S64.ShapeCasts S1x64
  inb_S2000x128_S2000x128_0_0 : ∀ a, (![0, 0] : Fin 2 → Nat) a + S2000x128.size a ≤ S2000x128.size a
  h_S2000x128 : 0 < S2000x128.numel
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  bcast_S_S64 : S_.BroadcastsInDim S64 (![] : Fin 0 → Fin S64.rank)
  shapeCasts_S2000x64_S2000x64 : S2000x64.ShapeCasts S2000x64
  inb_S64x64_S64x64_0_0 : ∀ a, (![0, 0] : Fin 2 → Nat) a + S64x64.size a ≤ S64x64.size a
  h_S64x64 : 0 < S64x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S100000_S100000x1 : S100000.ShapeCasts S100000x1
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x64 : S2000x1.Broadcasts S2000x64
  reduces_S2000x64_S2000 : S2000x64.Reduces [1] S2000
  shapeCasts_S2000_S2000x1 : S2000.ShapeCasts S2000x1
  scatter_S100000_S1600000x1_S1600000_n_0_0_1_wf : ScatterDims.WF S100000 S1600000x1 S1600000 [] [0] [0] 1
  dot_S2000x128_S128x64_S2000x64_1_0_0_1_n_n_wf : DotDims.WF S2000x128 S128x64 S2000x64 [1] [0] [0] [1] [] []
  dot_S2000x64_S64x64_S2000x64_1_0_0_1_n_n_wf : DotDims.WF S2000x64 S64x64 S2000x64 [1] [0] [0] [1] [] []
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x64.size a ≤ S100000x64.size a
  hwx0_3 : ∀ i : grid0.Coords, EltTy.bits .f32 = 32 ∨ (Rect.block (s := S100000x64) S2000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x64.size a ≤ S100000x64.size a
  hwx1_3 : ∀ i : grid1.Coords, EltTy.bits .f32 = 32 ∨ (Rect.block (s := S100000x64) S2000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x64.size a ≤ S100000x64.size a
  hwx2_1 : ∀ i : grid2.Coords, EltTy.bits .f32 = 32 ∨ (Rect.block (s := S100000x64) S2000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S100000x1.size a
  hwx2_2 : ∀ i : grid2.Coords, EltTy.bits .f32 = 32 ∨ (Rect.block (s := S100000x1) S2000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x64.size a ≤ S100000x64.size a
  hwx2_4 : ∀ i : grid2.Coords, EltTy.bits .f32 = 32 ∨ (Rect.block (s := S100000x64) S2000x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S100000x64.size a
  hwx3_0 : ∀ i : grid3.Coords, EltTy.bits .f32 = 32 ∨ (Rect.block (s := S100000x64) S2000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x64.size a ≤ S100000x64.size a
  hwx3_3 : ∀ i : grid3.Coords, EltTy.bits .f32 = 32 ∨ (Rect.block (s := S100000x64) S2000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x64.size a ≤ S100000x64.size a
  hwx4_0 : ∀ i : grid4.Coords, EltTy.bits .f32 = 32 ∨ (Rect.block (s := S100000x64) S2000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x64.size a ≤ S100000x64.size a
  hwx4_1 : ∀ i : grid4.Coords, EltTy.bits .f32 = 32 ∨ (Rect.block (s := S100000x64) S2000x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x1.size a ≤ S100000x1.size a
  hwx4_2 : ∀ i : grid4.Coords, EltTy.bits .f32 = 32 ∨ (Rect.block (s := S100000x1) S2000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S2000x64.size a ≤ S100000x64.size a
  hwx4_4 : ∀ i : grid4.Coords, EltTy.bits .f32 = 32 ∨ (Rect.block (s := S100000x64) S2000x64.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x64.size a ≤ S100000x64.size a
  hwx5_0 : ∀ i : grid5.Coords, EltTy.bits .f32 = 32 ∨ (Rect.block (s := S100000x64) S2000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x64.size a ≤ S64x64.size a
  hwx5_1 : ∀ i : grid5.Coords, EltTy.bits .f32 = 32 ∨ (Rect.block (s := S64x64) S64x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x64.size a ≤ S100000x64.size a
  hwx5_3 : ∀ i : grid5.Coords, EltTy.bits .f32 = 32 ∨ (Rect.block (s := S100000x64) S2000x64.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x64.size a ≤ S100000x64.size a
  hwx6_0 : ∀ i : grid6.Coords, EltTy.bits .f32 = 32 ∨ (Rect.block (s := S100000x64) S2000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x64.size a ≤ S100000x64.size a
  hwx6_1 : ∀ i : grid6.Coords, EltTy.bits .f32 = 32 ∨ (Rect.block (s := S100000x64) S2000x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x1.size a ≤ S100000x1.size a
  hwx6_2 : ∀ i : grid6.Coords, EltTy.bits .f32 = 32 ∨ (Rect.block (s := S100000x1) S2000x1.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x64.size a ≤ S1x64.size a
  hwx6_3 : ∀ i : grid6.Coords, EltTy.bits .f32 = 32 ∨ (Rect.block (s := S1x64) S1x64.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S2000x64.size a ≤ S100000x64.size a
  hwx6_4 : ∀ i : grid6.Coords, EltTy.bits .f32 = 32 ∨ (Rect.block (s := S100000x64) S2000x64.size (cc6_transform_4 i) (hinb6_4 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x64.size a ≤ S100000x64.size a
  hwx7_0 : ∀ i : grid7.Coords, EltTy.bits .f32 = 32 ∨ (Rect.block (s := S100000x64) S2000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2000x64.size a ≤ S100000x64.size a
  hwx7_1 : ∀ i : grid7.Coords, EltTy.bits .f32 = 32 ∨ (Rect.block (s := S100000x64) S2000x64.size (cc7_transform_1 i) (hinb7_1 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S2000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v13) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S2000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v44) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v16) S2000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v46) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v45) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v47) S2000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v47) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v49) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v50) S2000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v78) S2000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v50) S2000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v80) S2000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v79) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v81) S2000x64.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v81) S2000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg8) S64x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v83) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v84) S2000x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v112) S2000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v84) S2000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v114) S2000x1.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v113) S1x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v115) S2000x64.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev win7_0 : Pipeline.Window sig grid7 :=
  Pipeline.Window.ofSpec (Memref.whole main_v115) S2000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v116) S2000x64.size cc7_transform_1 reads7_1 true false 2 stage7_1 sem7_1
    hrank7 hreads7_1 hinb7_1 nbuf7_1 (Memref.isWhole_whole _) hwx7_1 hstage7_1

abbrev win7 : Fin 2 → Pipeline.Window sig grid7 := fun | 0 => win7_0 | 1 => win7_1 | ⟨_ + 2, h⟩ => absurd h (Nat.not_lt.2 (Nat.le_add_left _ _))
abbrev spec7 : Fin 2 → Pipeline.WinSpec sig grid7.rank := fun w => (win7 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x64 : Shape := ⟨2, ![100000, 64]⟩
abbrev S1x64 : Shape := ⟨2, ![1, 64]⟩
abbrev S1600000x64 : Shape := ⟨2, ![1600000, 64]⟩
abbrev S100000x1 : Shape := ⟨2, ![100000, 1]⟩

abbrev nBuf : Space → Nat
  | .hbm => 176
  | .vmem => 0
  | .smem => 0
  | _ => 0

abbrev hbmTy0_0 (i : Nat) : BufTy := match i % 128 with
  | 0 => ⟨S100000x128, .f32⟩
  | 1 => ⟨S2x1600000, .i32⟩
  | 2 => ⟨S128x64, .f32⟩
  | 3 => ⟨S64, .f32⟩
  | 4 => ⟨S64x64, .f32⟩
  | 5 => ⟨S64, .f32⟩
  | 6 => ⟨S64x64, .f32⟩
  | 7 => ⟨S64, .f32⟩
  | 8 => ⟨S64x64, .f32⟩
  | 9 => ⟨S64, .f32⟩
  | 10 => ⟨S1x1600000, .i32⟩
  | 11 => ⟨S1600000, .i32⟩
  | 12 => ⟨S1x1600000, .i32⟩
  | 13 => ⟨S1600000, .i32⟩
  | 14 => ⟨S_, .f32⟩
  | 15 => ⟨S1600000, .f32⟩
  | 16 => ⟨S_, .f32⟩
  | 17 => ⟨S100000, .f32⟩
  | 18 => ⟨S1600000x1, .i32⟩
  | 19 => ⟨S100000, .f32⟩
  | 20 => ⟨S_, .f32⟩
  | 21 => ⟨S100000, .f32⟩
  | 22 => ⟨S100000, .f32⟩
  | 23 => ⟨S100000, .f32⟩
  | 24 => ⟨S100000x64, .f32⟩
  | 25 => ⟨S1x64, .f32⟩
  | 26 => ⟨S100000x64, .f32⟩
  | 27 => ⟨S100000x64, .f32⟩
  | 28 => ⟨S100000x64, .f32⟩
  | 29 => ⟨S_, .i32⟩
  | 30 => ⟨S1600000, .i32⟩
  | 31 => ⟨S1600000, .i1⟩
  | 32 => ⟨S_, .i32⟩
  | 33 => ⟨S1600000, .i32⟩
  | 34 => ⟨S1600000, .i32⟩
  | 35 => ⟨S1600000, .i32⟩
  | 36 => ⟨S1600000x1, .i32⟩
  | 37 => ⟨S1600000, .f32⟩
  | 38 => ⟨S_, .i32⟩
  | 39 => ⟨S1600000, .i32⟩
  | 40 => ⟨S1600000, .i1⟩
  | 41 => ⟨S_, .i32⟩
  | 42 => ⟨S1600000, .i32⟩
  | 43 => ⟨S1600000, .i32⟩
  | 44 => ⟨S1600000, .i32⟩
  | 45 => ⟨S1600000x1, .i32⟩
  | 46 => ⟨S1600000, .f32⟩
  | 47 => ⟨S1600000, .f32⟩
  | 48 => ⟨S_, .i32⟩
  | 49 => ⟨S1600000, .i32⟩
  | 50 => ⟨S1600000, .i1⟩
  | 51 => ⟨S_, .i32⟩
  | 52 => ⟨S1600000, .i32⟩
  | 53 => ⟨S1600000, .i32⟩
  | 54 => ⟨S1600000, .i32⟩
  | 55 => ⟨S1600000x1, .i32⟩
  | 56 => ⟨S1600000x64, .f32⟩
  | 57 => ⟨S1600000x1, .f32⟩
  | 58 => ⟨S1600000x64, .f32⟩
  | 59 => ⟨S1600000x64, .f32⟩
  | 60 => ⟨S_, .f32⟩
  | 61 => ⟨S100000x64, .f32⟩
  | 62 => ⟨S1600000x1, .i32⟩
  | 63 => ⟨S100000x64, .f32⟩
  | 64 => ⟨S100000, .f32⟩
  | 65 => ⟨S100000x1, .f32⟩
  | 66 => ⟨S100000x64, .f32⟩
  | 67 => ⟨S100000x64, .f32⟩
  | 68 => ⟨S100000x64, .f32⟩
  | 69 => ⟨S1x64, .f32⟩
  | 70 => ⟨S100000x64, .f32⟩
  | 71 => ⟨S100000x64, .f32⟩
  | 72 => ⟨S_, .f32⟩
  | 73 => ⟨S100000x64, .f32⟩
  | 74 => ⟨S100000x64, .f32⟩
  | 75 => ⟨S100000x64, .f32⟩
  | 76 => ⟨S_, .i32⟩
  | 77 => ⟨S1600000, .i32⟩
  | 78 => ⟨S1600000, .i1⟩
  | 79 => ⟨S_, .i32⟩
  | 80 => ⟨S1600000, .i32⟩
  | 81 => ⟨S1600000, .i32⟩
  | 82 => ⟨S1600000, .i32⟩
  | 83 => ⟨S1600000x1, .i32⟩
  | 84 => ⟨S1600000, .f32⟩
  | 85 => ⟨S_, .i32⟩
  | 86 => ⟨S1600000, .i32⟩
  | 87 => ⟨S1600000, .i1⟩
  | 88 => ⟨S_, .i32⟩
  | 89 => ⟨S1600000, .i32⟩
  | 90 => ⟨S1600000, .i32⟩
  | 91 => ⟨S1600000, .i32⟩
  | 92 => ⟨S1600000x1, .i32⟩
  | 93 => ⟨S1600000, .f32⟩
  | 94 => ⟨S1600000, .f32⟩
  | 95 => ⟨S_, .i32⟩
  | 96 => ⟨S1600000, .i32⟩
  | 97 => ⟨S1600000, .i1⟩
  | 98 => ⟨S_, .i32⟩
  | 99 => ⟨S1600000, .i32⟩
  | 100 => ⟨S1600000, .i32⟩
  | 101 => ⟨S1600000, .i32⟩
  | 102 => ⟨S1600000x1, .i32⟩
  | 103 => ⟨S1600000x64, .f32⟩
  | 104 => ⟨S1600000x1, .f32⟩
  | 105 => ⟨S1600000x64, .f32⟩
  | 106 => ⟨S1600000x64, .f32⟩
  | 107 => ⟨S_, .f32⟩
  | 108 => ⟨S100000x64, .f32⟩
  | 109 => ⟨S1600000x1, .i32⟩
  | 110 => ⟨S100000x64, .f32⟩
  | 111 => ⟨S100000, .f32⟩
  | 112 => ⟨S100000x1, .f32⟩
  | 113 => ⟨S100000x64, .f32⟩
  | 114 => ⟨S100000x64, .f32⟩
  | 115 => ⟨S100000x64, .f32⟩
  | 116 => ⟨S1x64, .f32⟩
  | 117 => ⟨S100000x64, .f32⟩
  | 118 => ⟨S100000x64, .f32⟩
  | 119 => ⟨S_, .f32⟩
  | 120 => ⟨S100000x64, .f32⟩
  | 121 => ⟨S100000x64, .f32⟩
  | 122 => ⟨S100000x64, .f32⟩
  | 123 => ⟨S_, .i32⟩
  | 124 => ⟨S1600000, .i32⟩
  | 125 => ⟨S1600000, .i1⟩
  | 126 => ⟨S_, .i32⟩
  | 127 => ⟨S1600000, .i32⟩
  | _ => ⟨S100000x128, .f32⟩

abbrev hbmTy0_1 (i : Nat) : BufTy := match i % 128 with
  | 0 => ⟨S1600000, .i32⟩
  | 1 => ⟨S1600000, .i32⟩
  | 2 => ⟨S1600000x1, .i32⟩
  | 3 => ⟨S1600000, .f32⟩
  | 4 => ⟨S_, .i32⟩
  | 5 => ⟨S1600000, .i32⟩
  | 6 => ⟨S1600000, .i1⟩
  | 7 => ⟨S_, .i32⟩
  | 8 => ⟨S1600000, .i32⟩
  | 9 => ⟨S1600000, .i32⟩
  | 10 => ⟨S1600000, .i32⟩
  | 11 => ⟨S1600000x1, .i32⟩
  | 12 => ⟨S1600000, .f32⟩
  | 13 => ⟨S1600000, .f32⟩
  | 14 => ⟨S_, .i32⟩
  | 15 => ⟨S1600000, .i32⟩
  | 16 => ⟨S1600000, .i1⟩
  | 17 => ⟨S_, .i32⟩
  | 18 => ⟨S1600000, .i32⟩
  | 19 => ⟨S1600000, .i32⟩
  | 20 => ⟨S1600000, .i32⟩
  | 21 => ⟨S1600000x1, .i32⟩
  | 22 => ⟨S1600000x64, .f32⟩
  | 23 => ⟨S1600000x1, .f32⟩
  | 24 => ⟨S1600000x64, .f32⟩
  | 25 => ⟨S1600000x64, .f32⟩
  | 26 => ⟨S_, .f32⟩
  | 27 => ⟨S100000x64, .f32⟩
  | 28 => ⟨S1600000x1, .i32⟩
  | 29 => ⟨S100000x64, .f32⟩
  | 30 => ⟨S100000, .f32⟩
  | 31 => ⟨S100000x1, .f32⟩
  | 32 => ⟨S100000x64, .f32⟩
  | 33 => ⟨S100000x64, .f32⟩
  | 34 => ⟨S100000x64, .f32⟩
  | 35 => ⟨S1x64, .f32⟩
  | 36 => ⟨S100000x64, .f32⟩
  | 37 => ⟨S100000x64, .f32⟩
  | 38 => ⟨S100000x64, .f32⟩
  | 39 => ⟨S_, .f32⟩
  | 40 => ⟨S100000, .f32⟩
  | 41 => ⟨S100000x1, .f32⟩
  | 42 => ⟨S100000x1, .f32⟩
  | 43 => ⟨S_, .f32⟩
  | 44 => ⟨S100000x1, .f32⟩
  | 45 => ⟨S100000x1, .f32⟩
  | 46 => ⟨S100000x64, .f32⟩
  | 47 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_3 : Ref sig .tc := ⟨.hbm, 38, rfl⟩
abbrev main_v23 : Ref sig .tc := ⟨.hbm, 39, rfl⟩
abbrev main_v24 : Ref sig .tc := ⟨.hbm, 40, rfl⟩
abbrev main_c_4 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_5 : Ref sig .tc := ⟨.hbm, 48, rfl⟩
abbrev main_v31 : Ref sig .tc := ⟨.hbm, 49, rfl⟩
abbrev main_v32 : Ref sig .tc := ⟨.hbm, 50, rfl⟩
abbrev main_c_6 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_7 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_call0_cst : Ref sig .tc := ⟨.hbm, 72, rfl⟩
abbrev main_call0_v0 : Ref sig .tc := ⟨.hbm, 73, rfl⟩
abbrev main_v52 : Ref sig .tc := ⟨.hbm, 74, rfl⟩
abbrev main_v53 : Ref sig .tc := ⟨.hbm, 75, rfl⟩
abbrev main_c_8 : Ref sig .tc := ⟨.hbm, 76, rfl⟩
abbrev main_v54 : Ref sig .tc := ⟨.hbm, 77, rfl⟩
abbrev main_v55 : Ref sig .tc := ⟨.hbm, 78, rfl⟩
abbrev main_c_9 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_c_10 : Ref sig .tc := ⟨.hbm, 85, rfl⟩
abbrev main_v61 : Ref sig .tc := ⟨.hbm, 86, rfl⟩
abbrev main_v62 : Ref sig .tc := ⟨.hbm, 87, rfl⟩
abbrev main_c_11 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_c_12 : Ref sig .tc := ⟨.hbm, 95, rfl⟩
abbrev main_v69 : Ref sig .tc := ⟨.hbm, 96, rfl⟩
abbrev main_v70 : Ref sig .tc := ⟨.hbm, 97, rfl⟩
abbrev main_c_13 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_cst_14 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_call1_cst : Ref sig .tc := ⟨.hbm, 119, rfl⟩
abbrev main_call1_v0 : Ref sig .tc := ⟨.hbm, 120, rfl⟩
abbrev main_v90 : Ref sig .tc := ⟨.hbm, 121, rfl⟩
abbrev main_v91 : Ref sig .tc := ⟨.hbm, 122, rfl⟩
abbrev main_c_15 : Ref sig .tc := ⟨.hbm, 123, rfl⟩
abbrev main_v92 : Ref sig .tc := ⟨.hbm, 124, rfl⟩
abbrev main_v93 : Ref sig .tc := ⟨.hbm, 125, rfl⟩
abbrev main_c_16 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_c_17 : Ref sig .tc := ⟨.hbm, 132, rfl⟩
abbrev main_v99 : Ref sig .tc := ⟨.hbm, 133, rfl⟩
abbrev main_v100 : Ref sig .tc := ⟨.hbm, 134, rfl⟩
abbrev main_c_18 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_c_19 : Ref sig .tc := ⟨.hbm, 142, rfl⟩
abbrev main_v107 : Ref sig .tc := ⟨.hbm, 143, rfl⟩
abbrev main_v108 : Ref sig .tc := ⟨.hbm, 144, rfl⟩
abbrev main_c_20 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_cst_21 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_call2_v0 : Ref sig .tc := ⟨.hbm, 166, rfl⟩
abbrev main_call2_cst : Ref sig .tc := ⟨.hbm, 167, rfl⟩
abbrev main_call2_v1 : Ref sig .tc := ⟨.hbm, 168, rfl⟩
abbrev main_call2_v2 : Ref sig .tc := ⟨.hbm, 169, rfl⟩
abbrev main_v128 : Ref sig .tc := ⟨.hbm, 170, rfl⟩
abbrev main_cst_22 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  reducesTo_S100000x64_S100000_d1 : S100000x64.ReducesTo [1] S100000
  h_S_ : 0 < S_.numel
  bcast_S_S100000x1 : S_.BroadcastsInDim S100000x1 (![] : Fin 0 → Fin S100000x1.rank)
  scatter_S100000_S1600000x1_S1600000_n_0_0_1_wf : ScatterDims.WF S100000 S1600000x1 S1600000 [] [0] [0] 1
  dot_S100000x128_S128x64_S100000x64_1_0_0_1_n_n_wf : DotDims.WF S100000x128 S128x64 S100000x64 [1] [0] [0] [1] [] []
  dot_S100000x64_S64x64_S100000x64_1_0_0_1_n_n_wf : DotDims.WF S100000x64 S64x64 S100000x64 [1] [0] [0] [1] [] []
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.KernelRun.lean ====
/-
  The whole program's run with its result named. The program is eight tiled regions among stretches of host
  operations; its state between segments is the sequence of buffer contents `W0 … W15`, each obtained from the one
  before either by applying a stretch of host operations or by replacing a region's arrays by what its write-backs
  leave. Every weakly fair execution from any launch memory terminates, and in the final state every buffer holds the
  last of these contents, `W15`; in particular the result array holds `W15` at the result's buffer, and the argument
  arrays are as launched. The value lemmas of the other modules compute `W15` at that buffer.
-/
import proofs.«135448_j90589450207317_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the segments, read at the result's buffer as well as at the arguments': the final state agrees with the
    last boundary's contents on every unscoped buffer, the result's among them. -/
theorem run_result : θ_run defs (onTc (τ := τ) (main (F := F))) ⟨m, fun _ => 0, ρ⟩ (fun r => ∀ c : Dev nD,
      r.2.mem ((c.tc : Thread nD τ).loc main_v116) = W15 m ρ c (Proc.devRef .tc main_v116)
      ∧       r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v116 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c)⟩)

end Cert.KernelIdeal.Whole

end
-- ==== Proof.Bodies.lean ====
/-
  The eight kernel bodies read at one entry of their output block, on the extended reals.

  Four shapes of body occur. A LINEAR body multiplies a block of 2000 rows by the whole weight matrix and adds the
  bias row to every row: entry (p, q) is the sum over k of x(p, k)·W(k, q), plus b(q). A COMBINE body adds to the
  aggregated messages the node's own features scaled by its squared inverse root degree, then the bias row:
  entry (p, q) is (agg(p, q) + hw(p, q)·d(p)) + b(q); the first two of the three combine bodies then clamp at zero.
  The NORMALIZE body scales row p by the reciprocal of max(√(Σ_k h(p, k)²), ε).
-/
import proofs.«135448_j90589450207317_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Bodies

open Cert.KernelIdeal Cert.KernelIdeal.Gen Idealize.ShloMosaic Idealize.ShloMosaic.ValueIdx

/-! ### The block product with `128` contracted columns -/

theorem lhs128_0 (i : S2000x64.Idx) (q : dot_S2000x128_S128x64_S2000x64_1_0_0_1_n_n.contr.Idx) : (dot_S2000x128_S128x64_S2000x64_1_0_0_1_n_n.lhsIdx i q 0).val = (i 0).val := by
  unfold DotDims.lhsIdx
  rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
  rfl
theorem lhs128_1 (i : S2000x64.Idx) (q : dot_S2000x128_S128x64_S2000x64_1_0_0_1_n_n.contr.Idx) : (dot_S2000x128_S128x64_S2000x64_1_0_0_1_n_n.lhsIdx i q 1).val = (q ⟨0, by decide⟩).val :=
  dot_S2000x128_S128x64_S2000x64_1_0_0_1_n_n.lhsIdx_val_of_single rfl i q
theorem rhs128_0 (i : S2000x64.Idx) (q : dot_S2000x128_S128x64_S2000x64_1_0_0_1_n_n.contr.Idx) : (dot_S2000x128_S128x64_S2000x64_1_0_0_1_n_n.rhsIdx i q 0).val = (q ⟨0, by decide⟩).val :=
  dot_S2000x128_S128x64_S2000x64_1_0_0_1_n_n.rhsIdx_val_of_single rfl i q
theorem rhs128_1 (i : S2000x64.Idx) (q : dot_S2000x128_S128x64_S2000x64_1_0_0_1_n_n.contr.Idx) : (dot_S2000x128_S128x64_S2000x64_1_0_0_1_n_n.rhsIdx i q 1).val = (i 1).val := by
  unfold DotDims.rhsIdx
  rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
  rfl

/-- One entry of a block of rows times the weights, accumulated from zero: the row against the column. -/
theorem dot128_apply (x0 : FVec Ideal S2000x128 .f32) (x1 : FVec Ideal S128x64 .f32) (p : Fin 2000) (q : Fin 64) :
    matmul dot_S2000x128_S128x64_S2000x64_1_0_0_1_n_n none x0 x1 (constant (F := Ideal) S2000x64 .f32 0x00000000#32) (ix2 p q)
      = ∑ k : Fin 128, x0 (ix2 p k) * x1 (ix2 k q) := by
  refine (Ideal.matmul_constant_zero_apply dot_S2000x128_S128x64_S2000x64_1_0_0_1_n_n none x0 x1 (ix2 p q)).trans ?_
  rw [← Equiv.sum_comp (ValueIdx.contrEquiv1 dot_S2000x128_S128x64_S2000x64_1_0_0_1_n_n 128 rfl rfl).symm]
  refine Finset.sum_congr rfl fun k _ => ?_
  have hk := ValueIdx.contrEquiv1_symm_val dot_S2000x128_S128x64_S2000x64_1_0_0_1_n_n 128 rfl rfl k
  have el : dot_S2000x128_S128x64_S2000x64_1_0_0_1_n_n.lhsIdx (ix2 p q) ((ValueIdx.contrEquiv1 dot_S2000x128_S128x64_S2000x64_1_0_0_1_n_n 128 rfl rfl).symm k) = ix2 p k := funext fun a => Fin.ext (by
    match a with
    | ⟨0, _⟩ => exact lhs128_0 _ _
    | ⟨1, _⟩ => exact (lhs128_1 _ _).trans hk)
  have er : dot_S2000x128_S128x64_S2000x64_1_0_0_1_n_n.rhsIdx (ix2 p q) ((ValueIdx.contrEquiv1 dot_S2000x128_S128x64_S2000x64_1_0_0_1_n_n 128 rfl rfl).symm k) = ix2 k q := funext fun a => Fin.ext (by
    match a with
    | ⟨0, _⟩ => exact (rhs128_0 _ _).trans hk
    | ⟨1, _⟩ => exact rhs128_1 _ _)
  rw [el, er]

/-! ### The block product with `64` contracted columns -/

theorem lhs64_0 (i : S2000x64.Idx) (q : dot_S2000x64_S64x64_S2000x64_1_0_0_1_n_n.contr.Idx) : (dot_S2000x64_S64x64_S2000x64_1_0_0_1_n_n.lhsIdx i q 0).val = (i 0).val := by
  unfold DotDims.lhsIdx
  rw [dif_neg (show ¬(0 : Fin S2000x64.rank) ∈ dot_S2000x64_S64x64_S2000x64_1_0_0_1_n_n.lhsBatch by decide), dif_pos (show (0 : Fin S2000x64.rank) ∈ dot_S2000x64_S64x64_S2000x64_1_0_0_1_n_n.lhsNonContracting by decide)]
  rfl
theorem lhs64_1 (i : S2000x64.Idx) (q : dot_S2000x64_S64x64_S2000x64_1_0_0_1_n_n.contr.Idx) : (dot_S2000x64_S64x64_S2000x64_1_0_0_1_n_n.lhsIdx i q 1).val = (q ⟨0, by decide⟩).val :=
  dot_S2000x64_S64x64_S2000x64_1_0_0_1_n_n.lhsIdx_val_of_single rfl i q
theorem rhs64_0 (i : S2000x64.Idx) (q : dot_S2000x64_S64x64_S2000x64_1_0_0_1_n_n.contr.Idx) : (dot_S2000x64_S64x64_S2000x64_1_0_0_1_n_n.rhsIdx i q 0).val = (q ⟨0, by decide⟩).val :=
  dot_S2000x64_S64x64_S2000x64_1_0_0_1_n_n.rhsIdx_val_of_single rfl i q
theorem rhs64_1 (i : S2000x64.Idx) (q : dot_S2000x64_S64x64_S2000x64_1_0_0_1_n_n.contr.Idx) : (dot_S2000x64_S64x64_S2000x64_1_0_0_1_n_n.rhsIdx i q 1).val = (i 1).val := by
  unfold DotDims.rhsIdx
  rw [dif_neg (show ¬(1 : Fin S64x64.rank) ∈ dot_S2000x64_S64x64_S2000x64_1_0_0_1_n_n.rhsBatch by decide), dif_pos (show (1 : Fin S64x64.rank) ∈ dot_S2000x64_S64x64_S2000x64_1_0_0_1_n_n.rhsNonContracting by decide)]
  rfl

/-- One entry of a block of rows times the weights, accumulated from zero: the row against the column. -/
theorem dot64_apply (x0 : FVec Ideal S2000x64 .f32) (x1 : FVec Ideal S64x64 .f32) (p : Fin 2000) (q : Fin 64) :
    matmul dot_S2000x64_S64x64_S2000x64_1_0_0_1_n_n none x0 x1 (constant (F := Ideal) S2000x64 .f32 0x00000000#32) (ix2 p q)
      = ∑ k : Fin 64, x0 (ix2 p k) * x1 (ix2 k q) := by
  refine (Ideal.matmul_constant_zero_apply dot_S2000x64_S64x64_S2000x64_1_0_0_1_n_n none x0 x1 (ix2 p q)).trans ?_
  rw [← Equiv.sum_comp (ValueIdx.contrEquiv1 dot_S2000x64_S64x64_S2000x64_1_0_0_1_n_n 64 rfl rfl).symm]
  refine Finset.sum_congr rfl fun k _ => ?_
  have hk := ValueIdx.contrEquiv1_symm_val dot_S2000x64_S64x64_S2000x64_1_0_0_1_n_n 64 rfl rfl k
  have el : dot_S2000x64_S64x64_S2000x64_1_0_0_1_n_n.lhsIdx (ix2 p q) ((ValueIdx.contrEquiv1 dot_S2000x64_S64x64_S2000x64_1_0_0_1_n_n 64 rfl rfl).symm k) = ix2 p k := funext fun a => Fin.ext (by
    match a with
    | ⟨0, _⟩ => exact lhs64_0 _ _
    | ⟨1, _⟩ => exact (lhs64_1 _ _).trans hk)
  have er : dot_S2000x64_S64x64_S2000x64_1_0_0_1_n_n.rhsIdx (ix2 p q) ((ValueIdx.contrEquiv1 dot_S2000x64_S64x64_S2000x64_1_0_0_1_n_n 64 rfl rfl).symm k) = ix2 k q := funext fun a => Fin.ext (by
    match a with
    | ⟨0, _⟩ => exact (rhs64_0 _ _).trans hk
    | ⟨1, _⟩ => exact rhs64_1 _ _)
  rw [el, er]

/-! ### Layout: one column broadcast across a row's lanes, and a vector cast to a column -/

/-- A `[a, 1]` column broadcast to `[a, b]` reads, at `(p, c)`, the column's entry `p`. -/
theorem broadcastTo_col_apply {a b : ℕ} (v : (⟨2, ![a, 1]⟩ : Shape).Idx → EReal) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to an `[a, 1]` column reads, at `(p, 0)`, the vector's entry `p`. -/
theorem shapeCast_vec_col_apply {a : ℕ} (x : (⟨1, ![a]⟩ : Shape).Idx → EReal) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu]; omega)

/-! ### The linear bodies -/

/-- The first linear body (128 input features) at entry (p, q). -/
theorem linear128_apply (x0 : FVec Ideal S2000x128 .f32) (x1 : FVec Ideal S128x64 .f32) (x2 : FVec Ideal S1x64 .f32)
    (p : Fin 2000) (q : Fin 64) :
    k0_pay1 (F := Ideal) x0 x1 x2 (ix2 p q) = (∑ k : Fin 128, x0 (ix2 p k) * x1 (ix2 k q)) + x2 (ix2 (0 : Fin 1) q) := by
  unfold k0_pay1
  refine congrArg₂ (· + ·) (dot128_apply x0 x1 p q) ?_
  rw [shapeCast_self]
  exact broadcastTo_1b_ab_apply x2 _ p q

/-- A hidden linear body (64 input features) at entry (p, q). -/
theorem linear64_apply (x0 : FVec Ideal S2000x64 .f32) (x1 : FVec Ideal S64x64 .f32) (x2 : FVec Ideal S1x64 .f32)
    (p : Fin 2000) (q : Fin 64) :
    k1_pay1 (F := Ideal) x0 x1 x2 (ix2 p q) = (∑ k : Fin 64, x0 (ix2 p k) * x1 (ix2 k q)) + x2 (ix2 (0 : Fin 1) q) := by
  unfold k1_pay1
  rw [shapeCast_self]
  refine congrArg₂ (· + ·) (dot64_apply x0 x1 p q) ?_
  rw [shapeCast_self]
  exact broadcastTo_1b_ab_apply x2 _ p q

/-- The three hidden linear bodies are one function. -/
theorem k3_eq_k1 : @k3_pay1 Ideal _ = @k1_pay1 Ideal _ := rfl
theorem k5_eq_k1 : @k5_pay1 Ideal _ = @k1_pay1 Ideal _ := rfl

/-! ### The combine bodies -/

/-- The last combine body (no clamp) at entry (p, q). -/
theorem combine_apply (x0 x1 : FVec Ideal S2000x64 .f32) (x2 : FVec Ideal S2000x1 .f32) (x3 : FVec Ideal S1x64 .f32)
    (p : Fin 2000) (q : Fin 64) :
    k6_pay1 (F := Ideal) x0 x1 x2 x3 (ix2 p q)
      = (x0 (ix2 p q) + x1 (ix2 p q) * x2 (ix2 p (0 : Fin 1))) + x3 (ix2 (0 : Fin 1) q) := by
  unfold k6_pay1
  rw [shapeCast_self, shapeCast_self, shapeCast_self, shapeCast_self]
  refine congrArg₂ (· + ·) (congrArg₂ (· + ·) rfl (congrArg₂ (· * ·) rfl ?_)) ?_
  · exact broadcastTo_col_apply x2 _ p q
  · exact broadcastTo_1b_ab_apply x3 _ p q

/-- The first two combine bodies (clamped at zero) at entry (p, q). -/
theorem combineRelu_apply (x0 x1 : FVec Ideal S2000x64 .f32) (x2 : FVec Ideal S2000x1 .f32) (x3 : FVec Ideal S1x64 .f32)
    (p : Fin 2000) (q : Fin 64) :
    k2_pay1 (F := Ideal) x0 x1 x2 x3 (ix2 p q)
      = max ((x0 (ix2 p q) + x1 (ix2 p q) * x2 (ix2 p (0 : Fin 1))) + x3 (ix2 (0 : Fin 1) q)) (Ideal.ofBits .f32 0x00000000#32) := by
  unfold k2_pay1
  rw [shapeCast_self, shapeCast_self, shapeCast_self, shapeCast_self]
  refine congrArg₂ max (congrArg₂ (· + ·) (congrArg₂ (· + ·) rfl (congrArg₂ (· * ·) rfl ?_)) ?_) rfl
  · exact broadcastTo_col_apply x2 _ p q
  · exact broadcastTo_1b_ab_apply x3 _ p q

theorem k4_eq_k2 : @k4_pay1 Ideal _ = @k2_pay1 Ideal _ := rfl

/-! ### The normalize body -/

/-- A row's sum of squares, as the body's lane reduction computes it. -/
theorem rowSum_apply (v : FVec Ideal S2000x64 .f32) (h : S2000x64.Reduces [1] S2000) (hφ : FKind.Formats .f32)
    (hacc : (0x00000000#32 : BitVec 32) = 0x00000000#32) (p : Fin 2000) :
    multiReduction (F := Ideal) .add [1] S2000 v 0x00000000#32 h hφ hacc (ix1 p) = ∑ k : Fin 64, v (ix2 p k) := by
  refine (Ideal.multiReduction_add_single v 0x00000000#32 h hφ hacc (ix1 p)).trans ?_
  refine Finset.sum_congr rfl fun k _ => congrArg v ?_
  funext a
  apply Fin.ext
  match a with
  | ⟨0, _⟩ => rfl
  | ⟨1, _⟩ => rfl

/-- The normalize body at entry (p, q). -/
theorem normalize_apply (x0 : FVec Ideal S2000x64 .f32) (p : Fin 2000) (q : Fin 64) :
    k7_pay1 (F := Ideal) x0 (ix2 p q)
      = x0 (ix2 p q) * Ideal.div (Ideal.ofBits .f32 0x3F800000#32)
          (max (Ideal.sqrt (∑ k : Fin 64, x0 (ix2 p k) * x0 (ix2 p k))) (Ideal.ofBits .f32 0x2B8CBCCC#32)) := by
  unfold k7_pay1
  rw [shapeCast_self]
  refine congrArg₂ (· * ·) rfl ?_
  refine (broadcastTo_col_apply _ _ p q).trans ?_
  refine congrArg₂ Ideal.div rfl (congrArg₂ max (congrArg Ideal.sqrt ?_) rfl)
  refine (shapeCast_vec_col_apply _ _ p (0 : Fin 1)).trans ?_
  exact rowSum_apply _ _ _ _ p

end Cert.KernelIdeal.Bodies

end
-- ==== Proof.Layers.lean ====
/-
  The five layer functions of the network, each as ONE function of whole arrays, entry by entry, on the extended reals;
  and, for each kernel body, the statement that an entry of its output block is the layer's entry at the array row the
  block row comes from.

  * `affine128`, `affine64`: entry (r, q) of `x·W + b` is the sum over k of x(r, k)·W(k, q), plus b(q).
  * `selfLoop`: entry (r, q) is (agg(r, q) + hw(r, q)·d(r)) + b(q) — the aggregated messages, the node's own
    features scaled by its squared inverse root degree, and the bias. `selfLoopRelu` clamps that at zero.
  * `unitRows`: entry (r, q) is h(r, q)·(1 / max(√(Σ_k h(r, k)²), ε)).
-/
import proofs.«135448_j90589450207317_1_alg».proof.Proof.Bodies

noncomputable section

namespace Cert.KernelIdeal.Layers

open Cert.KernelIdeal Cert.KernelIdeal.Gen Cert.KernelIdeal.Bodies Idealize.ShloMosaic Idealize.ShloMosaic.ValueIdx

def affine128 (x : FVec Ideal S100000x128 .f32) (W : FVec Ideal S128x64 .f32) (b : FVec Ideal S1x64 .f32) : FVec Ideal S100000x64 .f32 :=
  fun i => (∑ k : Fin 128, x (ix2 (i 0) k) * W (ix2 k (i 1))) + b (ix2 (0 : Fin 1) (i 1))

def affine64 (x : FVec Ideal S100000x64 .f32) (W : FVec Ideal S64x64 .f32) (b : FVec Ideal S1x64 .f32) : FVec Ideal S100000x64 .f32 :=
  fun i => (∑ k : Fin 64, x (ix2 (i 0) k) * W (ix2 k (i 1))) + b (ix2 (0 : Fin 1) (i 1))

def selfLoop (agg hw : FVec Ideal S100000x64 .f32) (d : FVec Ideal S100000x1 .f32) (b : FVec Ideal S1x64 .f32) : FVec Ideal S100000x64 .f32 :=
  fun i => (agg (ix2 (i 0) (i 1)) + hw (ix2 (i 0) (i 1)) * d (ix2 (i 0) (0 : Fin 1))) + b (ix2 (0 : Fin 1) (i 1))

def selfLoopRelu (agg hw : FVec Ideal S100000x64 .f32) (d : FVec Ideal S100000x1 .f32) (b : FVec Ideal S1x64 .f32) : FVec Ideal S100000x64 .f32 :=
  fun i => max (selfLoop agg hw d b i) (Ideal.ofBits .f32 0x00000000#32)

def unitRows (h : FVec Ideal S100000x64 .f32) : FVec Ideal S100000x64 .f32 :=
  fun i => h (ix2 (i 0) (i 1)) * Ideal.div (Ideal.ofBits .f32 0x3F800000#32)
    (max (Ideal.sqrt (∑ k : Fin 64, h (ix2 (i 0) k) * h (ix2 (i 0) k))) (Ideal.ofBits .f32 0x2B8CBCCC#32))

/-- Region 0's body: row p of the block of `x` is row r of the array, the weights and the bias row are whole. -/
theorem block0 (A0 : FVec Ideal S100000x128 .f32) (A1 : FVec Ideal S128x64 .f32) (A2 : FVec Ideal S1x64 .f32)
    (X0 : FVec Ideal S2000x128 .f32) (X1 : FVec Ideal S128x64 .f32) (X2 : FVec Ideal S1x64 .f32)
    (r : Fin 100000) (p : Fin 2000) (q : Fin 64)
    (h0 : ∀ k : Fin 128, X0 (ix2 p k) = A0 (ix2 r k)) (h1 : X1 = A1) (h2 : X2 = A2) :
    k0_pay1 (F := Ideal) X0 X1 X2 (ix2 p q) = affine128 A0 A1 A2 (ix2 r q) := by
  subst h1 h2
  rw [linear128_apply]
  exact congrArg₂ (· + ·) (Finset.sum_congr rfl fun k _ => by rw [h0 k]) rfl

/-- A hidden linear body, likewise. -/
theorem block1 (A0 : FVec Ideal S100000x64 .f32) (A1 : FVec Ideal S64x64 .f32) (A2 : FVec Ideal S1x64 .f32)
    (X0 : FVec Ideal S2000x64 .f32) (X1 : FVec Ideal S64x64 .f32) (X2 : FVec Ideal S1x64 .f32)
    (r : Fin 100000) (p : Fin 2000) (q : Fin 64)
    (h0 : ∀ k : Fin 64, X0 (ix2 p k) = A0 (ix2 r k)) (h1 : X1 = A1) (h2 : X2 = A2) :
    k1_pay1 (F := Ideal) X0 X1 X2 (ix2 p q) = affine64 A0 A1 A2 (ix2 r q) := by
  subst h1 h2
  rw [linear64_apply]
  exact congrArg₂ (· + ·) (Finset.sum_congr rfl fun k _ => by rw [h0 k]) rfl

theorem block3 (A0 : FVec Ideal S100000x64 .f32) (A1 : FVec Ideal S64x64 .f32) (A2 : FVec Ideal S1x64 .f32)
    (X0 : FVec Ideal S2000x64 .f32) (X1 : FVec Ideal S64x64 .f32) (X2 : FVec Ideal S1x64 .f32)
    (r : Fin 100000) (p : Fin 2000) (q : Fin 64)
    (h0 : ∀ k : Fin 64, X0 (ix2 p k) = A0 (ix2 r k)) (h1 : X1 = A1) (h2 : X2 = A2) :
    k3_pay1 (F := Ideal) X0 X1 X2 (ix2 p q) = affine64 A0 A1 A2 (ix2 r q) :=
  block1 A0 A1 A2 X0 X1 X2 r p q h0 h1 h2

theorem block5 (A0 : FVec Ideal S100000x64 .f32) (A1 : FVec Ideal S64x64 .f32) (A2 : FVec Ideal S1x64 .f32)
    (X0 : FVec Ideal S2000x64 .f32) (X1 : FVec Ideal S64x64 .f32) (X2 : FVec Ideal S1x64 .f32)
    (r : Fin 100000) (p : Fin 2000) (q : Fin 64)
    (h0 : ∀ k : Fin 64, X0 (ix2 p k) = A0 (ix2 r k)) (h1 : X1 = A1) (h2 : X2 = A2) :
    k5_pay1 (F := Ideal) X0 X1 X2 (ix2 p q) = affine64 A0 A1 A2 (ix2 r q) :=
  block1 A0 A1 A2 X0 X1 X2 r p q h0 h1 h2

/-- The last combine body: entries (p, q) of the two row blocks and entry p of the degree column are the arrays' at row r. -/
theorem block6 (A0 A1 : FVec Ideal S100000x64 .f32) (A2 : FVec Ideal S100000x1 .f32) (A3 : FVec Ideal S1x64 .f32)
    (X0 X1 : FVec Ideal S2000x64 .f32) (X2 : FVec Ideal S2000x1 .f32) (X3 : FVec Ideal S1x64 .f32)
    (r : Fin 100000) (p : Fin 2000) (q : Fin 64)
    (h0 : X0 (ix2 p q) = A0 (ix2 r q)) (h1 : X1 (ix2 p q) = A1 (ix2 r q))
    (h2 : X2 (ix2 p (0 : Fin 1)) = A2 (ix2 r (0 : Fin 1))) (h3 : X3 = A3) :
    k6_pay1 (F := Ideal) X0 X1 X2 X3 (ix2 p q) = selfLoop A0 A1 A2 A3 (ix2 r q) := by
  subst h3
  rw [combine_apply, h0, h1, h2]
  rfl

/-- The clamped combine bodies. -/
theorem block2 (A0 A1 : FVec Ideal S100000x64 .f32) (A2 : FVec Ideal S100000x1 .f32) (A3 : FVec Ideal S1x64 .f32)
    (X0 X1 : FVec Ideal S2000x64 .f32) (X2 : FVec Ideal S2000x1 .f32) (X3 : FVec Ideal S1x64 .f32)
    (r : Fin 100000) (p : Fin 2000) (q : Fin 64)
    (h0 : X0 (ix2 p q) = A0 (ix2 r q)) (h1 : X1 (ix2 p q) = A1 (ix2 r q))
    (h2 : X2 (ix2 p (0 : Fin 1)) = A2 (ix2 r (0 : Fin 1))) (h3 : X3 = A3) :
    k2_pay1 (F := Ideal) X0 X1 X2 X3 (ix2 p q) = selfLoopRelu A0 A1 A2 A3 (ix2 r q) := by
  subst h3
  rw [combineRelu_apply, h0, h1, h2]
  rfl

theorem block4 (A0 A1 : FVec Ideal S100000x64 .f32) (A2 : FVec Ideal S100000x1 .f32) (A3 : FVec Ideal S1x64 .f32)
    (X0 X1 : FVec Ideal S2000x64 .f32) (X2 : FVec Ideal S2000x1 .f32) (X3 : FVec Ideal S1x64 .f32)
    (r : Fin 100000) (p : Fin 2000) (q : Fin 64)
    (h0 : X0 (ix2 p q) = A0 (ix2 r q)) (h1 : X1 (ix2 p q) = A1 (ix2 r q))
    (h2 : X2 (ix2 p (0 : Fin 1)) = A2 (ix2 r (0 : Fin 1))) (h3 : X3 = A3) :
    k4_pay1 (F := Ideal) X0 X1 X2 X3 (ix2 p q) = selfLoopRelu A0 A1 A2 A3 (ix2 r q) :=
  block2 A0 A1 A2 A3 X0 X1 X2 X3 r p q h0 h1 h2 h3

/-- The normalize body: row p of the block is row r of the array. -/
theorem block7 (A0 : FVec Ideal S100000x64 .f32) (X0 : FVec Ideal S2000x64 .f32)
    (r : Fin 100000) (p : Fin 2000) (q : Fin 64) (h0 : ∀ k : Fin 64, X0 (ix2 p k) = A0 (ix2 r k)) :
    k7_pay1 (F := Ideal) X0 (ix2 p q) = unitRows A0 (ix2 r q) := by
  rw [normalize_apply, h0 q]
  refine congrArg (A0 (ix2 r q) * ·) (congrArg₂ Ideal.div rfl (congrArg₂ max (congrArg Ideal.sqrt ?_) rfl))
  exact Finset.sum_congr rfl fun k _ => by rw [h0 k]

end Cert.KernelIdeal.Layers

end
-- ==== Proof.Region6.lean ====
/-
  Region 6: the third self-loop and bias (no clamp), tiled over 50 blocks of 2000 rows. Grid point `t` reads rows `2000·t … 2000·t + 1999` of
  each row-tiled operand (and the small operands whole) and writes the same rows of the result, so the result array
  after the region is ONE function, `Layers.selfLoop`, of the arrays as the region finds them. Row `r` lies in the
  block of point `r / 2000`, so the blocks cover the array.
-/
import proofs.«135448_j90589450207317_1_alg».proof.Proof.Gen.KernelIdeal.Frame
import proofs.«135448_j90589450207317_1_alg».proof.Proof.Layers
import Idealize.ShloMosaic.Lib.Pipeline.Value

noncomputable section

namespace Cert.KernelIdeal.Region6

open Cert.KernelIdeal Cert.KernelIdeal.Gen Cert.KernelIdeal.Layers
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: a row-tiled window sits at block `t`, a whole operand at block 0. -/
theorem idx_facts : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0
    ∧ win6_3.index t (0 : Fin 2) = 0 ∧ win6_3.index t (1 : Fin 2) = 0
    ∧ win6_4.index t (0 : Fin 2) = t.val ∧ win6_4.index t (1 : Fin 2) = 0 :=
  (by decide +kernel : ∀ t : Fin grid6.N, _)

/-- What point `t` writes back is block `t` of the layer function of the arrays as the region finds them. -/
theorem flushed_eq (c : Dev nD) (t : Fin cfg6.N) :
    (dat6 V c).flushed 4 t = ((cfg6.win 4).blk t).view.read (Elt Ideal) (selfLoop (V c main_v112) (V c main_v84) (V c main_v114) (V c main_v113)) := by
  show (cfg6.win 4).cut (grid6.coords t) ((dat6 V c).after 4 t) = _
  rw [after6_4]
  unfold out6_4
  rw [View.canon_unit_zero hz]
  simp only [View.ld_unit_zero (S := S2000x64) hz, View.ld_unit_zero (S := S2000x1) hz, View.ld_unit_zero (S := S1x64) hz]
  obtain ⟨e00, e01, e10, e11, e20, e21, e30, e31, eo0, eo1⟩ := idx_facts t
  funext j
  obtain ⟨p, q, rfl⟩ : ∃ (p : Fin 2000) (q : Fin 64), j = ix2 p q := ⟨j 0, j 1, eq_ix2 j⟩
  show k6_pay1 (F := Ideal) (iblk6 V c 0 t) (iblk6 V c 1 t) (iblk6 V c 2 t) (iblk6 V c 3 t) (ix2 p q)
    = selfLoop (V c main_v112) (V c main_v84) (V c main_v114) (V c main_v113) (((cfg6.win 4).blk t).view.emb (ix2 p q))
  refine (block6 (V c main_v112) (V c main_v84) (V c main_v114) (V c main_v113) (iblk6 V c 0 t) (iblk6 V c 1 t) (iblk6 V c 2 t) (iblk6 V c 3 t)
    ((((cfg6.win 4).blk t).view.emb (ix2 p q)) 0) p q ?_ ?_ ?_ ?_).trans ?_
  · show V c main_v112 (((cfg6.win 0).blk t).view.emb (ix2 p q)) = V c main_v112 _
    refine congrArg (V c main_v112) (funext fun a => Fin.ext ?_)
    match a with
    | ⟨0, _⟩ => show win6_0.index t (0 : Fin 2) * 2000 + 1 * p.val = win6_4.index t (0 : Fin 2) * 2000 + 1 * p.val; omega
    | ⟨1, _⟩ => show win6_0.index t (1 : Fin 2) * 64 + 1 * q.val = q.val; omega
  · show V c main_v84 (((cfg6.win 1).blk t).view.emb (ix2 p q)) = V c main_v84 _
    refine congrArg (V c main_v84) (funext fun a => Fin.ext ?_)
    match a with
    | ⟨0, _⟩ => show win6_1.index t (0 : Fin 2) * 2000 + 1 * p.val = win6_4.index t (0 : Fin 2) * 2000 + 1 * p.val; omega
    | ⟨1, _⟩ => show win6_1.index t (1 : Fin 2) * 64 + 1 * q.val = q.val; omega
  · show V c main_v114 (((cfg6.win 2).blk t).view.emb (ix2 p (0 : Fin 1))) = V c main_v114 _
    refine congrArg (V c main_v114) (funext fun a => Fin.ext ?_)
    match a with
    | ⟨0, _⟩ => show win6_2.index t (0 : Fin 2) * 2000 + 1 * p.val = win6_4.index t (0 : Fin 2) * 2000 + 1 * p.val; omega
    | ⟨1, _⟩ => show win6_2.index t (1 : Fin 2) * 1 + 1 * 0 = 0; omega
  · funext y
    show V c main_v113 (((cfg6.win 3).blk t).view.emb y) = V c main_v113 y
    refine congrArg (V c main_v113) (funext fun a => Fin.ext ?_)
    match a with
    | ⟨0, _⟩ => show win6_3.index t (0 : Fin 2) * 1 + 1 * (y 0).val = (y 0).val; omega
    | ⟨1, _⟩ => show win6_3.index t (1 : Fin 2) * 64 + 1 * (y 1).val = (y 1).val; omega
  · refine congrArg (selfLoop (V c main_v112) (V c main_v84) (V c main_v114) (V c main_v113)) (funext fun a => Fin.ext ?_)
    match a with
    | ⟨0, _⟩ => rfl
    | ⟨1, _⟩ => show q.val = win6_4.index t (1 : Fin 2) * 64 + 1 * q.val; omega

/-- An index of the result array is in point `t`'s block iff each coordinate is in the block's range on its axis. -/
theorem mem_blk (t : Fin cfg6.N) (i : S100000x64.Idx) :
    i ∈ ((cfg6.win 4).blk t).view.set ↔ ∀ a : Fin 2, win6_4.index t a * S2000x64.size a ≤ (i a).val ∧ (i a).val < win6_4.index t a * S2000x64.size a + S2000x64.size a := by
  show i ∈ ((View.whole main_v115).slice (win6_4.rect t)).set ↔ _
  rw [View.set_slice_whole, Rect.mem_set_unit]
  exact Iff.rfl

/-- Row `r` lies in the block of point `r / 2000`: the blocks cover the array. -/
theorem cover (i : S100000x64.Idx) : ∃ t : Fin cfg6.N, (cfg6.win 4).flush t = true ∧ i ∈ ((cfg6.win 4).blk t).view.set := by
  have hi0 : (i 0).val < 100000 := (i 0).isLt
  have hi1 : (i 1).val < 64 := (i 1).isLt
  have ht : (i 0).val / 2000 < grid6.N := by rw [N_6]; omega
  refine ⟨⟨(i 0).val / 2000, ht⟩, flush6_4 _, ?_⟩
  rw [mem_blk]
  obtain ⟨-, -, -, -, -, -, -, -, eo0, eo1⟩ := idx_facts ⟨(i 0).val / 2000, ht⟩
  have eo0' : win6_4.index ⟨(i 0).val / 2000, ht⟩ (0 : Fin 2) = (i 0).val / 2000 := eo0
  intro a
  match a with
  | ⟨0, _⟩ => show win6_4.index _ (0 : Fin 2) * 2000 ≤ (i 0).val ∧ (i 0).val < win6_4.index _ (0 : Fin 2) * 2000 + 2000; rw [eo0']; omega
  | ⟨1, _⟩ => show win6_4.index _ (1 : Fin 2) * 64 ≤ (i 1).val ∧ (i 1).val < win6_4.index _ (1 : Fin 2) * 64 + 64; rw [eo1]; omega

/-- The result array after the region is the layer function of the arrays as the region finds them. -/
theorem final (c : Dev nD) :
    (dat6 V c).arrAt 4 cfg6.N = selfLoop (V c main_v112) (V c main_v84) (V c main_v114) (V c main_v113) :=
  (dat6 V c).arrAt_eq_of_cover 4 (selfLoop (V c main_v112) (V c main_v84) (V c main_v114) (V c main_v113)) (fun t _ => flushed_eq V c t) cover

end Cert.KernelIdeal.Region6

end
-- ==== Proof.Region7.lean ====
/-
  Region 7: the row normalization, tiled over 50 blocks of 2000 rows. Grid point `t` reads rows `2000·t … 2000·t + 1999` of
  each row-tiled operand (and the small operands whole) and writes the same rows of the result, so the result array
  after the region is ONE function, `Layers.unitRows`, of the arrays as the region finds them. Row `r` lies in the
  block of point `r / 2000`, so the blocks cover the array.
-/
import proofs.«135448_j90589450207317_1_alg».proof.Proof.Gen.KernelIdeal.Frame
import proofs.«135448_j90589450207317_1_alg».proof.Proof.Layers
import Idealize.ShloMosaic.Lib.Pipeline.Value

noncomputable section

namespace Cert.KernelIdeal.Region7

open Cert.KernelIdeal Cert.KernelIdeal.Gen Cert.KernelIdeal.Layers
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: a row-tiled window sits at block `t`, a whole operand at block 0. -/
theorem idx_facts : ∀ t : Fin cfg7.N,
    win7_0.index t (0 : Fin 2) = t.val ∧ win7_0.index t (1 : Fin 2) = 0
    ∧ win7_1.index t (0 : Fin 2) = t.val ∧ win7_1.index t (1 : Fin 2) = 0 :=
  (by decide +kernel : ∀ t : Fin grid7.N, _)

/-- What point `t` writes back is block `t` of the layer function of the arrays as the region finds them. -/
theorem flushed_eq (c : Dev nD) (t : Fin cfg7.N) :
    (dat7 V c).flushed 1 t = ((cfg7.win 1).blk t).view.read (Elt Ideal) (unitRows (V c main_v115)) := by
  show (cfg7.win 1).cut (grid7.coords t) ((dat7 V c).after 1 t) = _
  rw [after7_1]
  unfold out7_1
  rw [View.canon_unit_zero hz]
  simp only [View.ld_unit_zero (S := S2000x64) hz]
  obtain ⟨e00, e01, eo0, eo1⟩ := idx_facts t
  funext j
  obtain ⟨p, q, rfl⟩ : ∃ (p : Fin 2000) (q : Fin 64), j = ix2 p q := ⟨j 0, j 1, eq_ix2 j⟩
  show k7_pay1 (F := Ideal) (iblk7 V c 0 t) (ix2 p q)
    = unitRows (V c main_v115) (((cfg7.win 1).blk t).view.emb (ix2 p q))
  refine (block7 (V c main_v115) (iblk7 V c 0 t)
    ((((cfg7.win 1).blk t).view.emb (ix2 p q)) 0) p q ?_).trans ?_
  · intro k
    show V c main_v115 (((cfg7.win 0).blk t).view.emb (ix2 p k)) = V c main_v115 _
    refine congrArg (V c main_v115) (funext fun a => Fin.ext ?_)
    match a with
    | ⟨0, _⟩ => show win7_0.index t (0 : Fin 2) * 2000 + 1 * p.val = win7_1.index t (0 : Fin 2) * 2000 + 1 * p.val; omega
    | ⟨1, _⟩ => show win7_0.index t (1 : Fin 2) * 64 + 1 * k.val = k.val; omega
  · refine congrArg (unitRows (V c main_v115)) (funext fun a => Fin.ext ?_)
    match a with
    | ⟨0, _⟩ => rfl
    | ⟨1, _⟩ => show q.val = win7_1.index t (1 : Fin 2) * 64 + 1 * q.val; omega

/-- An index of the result array is in point `t`'s block iff each coordinate is in the block's range on its axis. -/
theorem mem_blk (t : Fin cfg7.N) (i : S100000x64.Idx) :
    i ∈ ((cfg7.win 1).blk t).view.set ↔ ∀ a : Fin 2, win7_1.index t a * S2000x64.size a ≤ (i a).val ∧ (i a).val < win7_1.index t a * S2000x64.size a + S2000x64.size a := by
  show i ∈ ((View.whole main_v116).slice (win7_1.rect t)).set ↔ _
  rw [View.set_slice_whole, Rect.mem_set_unit]
  exact Iff.rfl

/-- Row `r` lies in the block of point `r / 2000`: the blocks cover the array. -/
theorem cover (i : S100000x64.Idx) : ∃ t : Fin cfg7.N, (cfg7.win 1).flush t = true ∧ i ∈ ((cfg7.win 1).blk t).view.set := by
  have hi0 : (i 0).val < 100000 := (i 0).isLt
  have hi1 : (i 1).val < 64 := (i 1).isLt
  have ht : (i 0).val / 2000 < grid7.N := by rw [N_7]; omega
  refine ⟨⟨(i 0).val / 2000, ht⟩, flush7_1 _, ?_⟩
  rw [mem_blk]
  obtain ⟨-, -, eo0, eo1⟩ := idx_facts ⟨(i 0).val / 2000, ht⟩
  have eo0' : win7_1.index ⟨(i 0).val / 2000, ht⟩ (0 : Fin 2) = (i 0).val / 2000 := eo0
  intro a
  match a with
  | ⟨0, _⟩ => show win7_1.index _ (0 : Fin 2) * 2000 ≤ (i 0).val ∧ (i 0).val < win7_1.index _ (0 : Fin 2) * 2000 + 2000; rw [eo0']; omega
  | ⟨1, _⟩ => show win7_1.index _ (1 : Fin 2) * 64 ≤ (i 1).val ∧ (i 1).val < win7_1.index _ (1 : Fin 2) * 64 + 64; rw [eo1]; omega

/-- The result array after the region is the layer function of the arrays as the region finds them. -/
theorem final (c : Dev nD) :
    (dat7 V c).arrAt 1 cfg7.N = unitRows (V c main_v115) :=
  (dat7 V c).arrAt_eq_of_cover 1 (unitRows (V c main_v115)) (fun t _ => flushed_eq V c t) cover

end Cert.KernelIdeal.Region7

end
-- ==== Proof.Carry.lean ====
/-
  A buffer that a stretch of host operations does not write holds afterwards what it held before: the source program
  assigns every buffer once, so the edge lists, the inverse root degrees, the arguments and each region's result pass
  unchanged through every later stretch until they are read.
-/
import proofs.«135448_j90589450207317_1_alg».proof.Proof.Gen.KernelIdeal.Launch
import Idealize.ShloMosaic.Lib.StableHlo.Run

noncomputable section

namespace Cert.KernelIdeal.Carry

open Cert.KernelIdeal Cert.KernelIdeal.Gen Idealize.ShloMosaic Idealize.ShloMosaic.TcCoe Idealize.ShloMosaic.StableHlo

variable {F : FTy → Type} [FloatOps F]

theorem keep1_main_v1 (W : Valuation τ sig (Elt F)) :
    StableHlo.after (hostOps1 (F := F)) W (Proc.devRef .tc main_v1) = W (Proc.devRef .tc main_v1) := by
  after_results_simp
theorem keep2_main_v1 (W : Valuation τ sig (Elt F)) :
    StableHlo.after (hostOps2 (F := F)) W (Proc.devRef .tc main_v1) = W (Proc.devRef .tc main_v1) := by
  after_results_simp
theorem keep3_main_v1 (W : Valuation τ sig (Elt F)) :
    StableHlo.after (hostOps3 (F := F)) W (Proc.devRef .tc main_v1) = W (Proc.devRef .tc main_v1) := by
  after_results_simp
theorem keep4_main_v1 (W : Valuation τ sig (Elt F)) :
    StableHlo.after (hostOps4 (F := F)) W (Proc.devRef .tc main_v1) = W (Proc.devRef .tc main_v1) := by
  after_results_simp
theorem keep5_main_v1 (W : Valuation τ sig (Elt F)) :
    StableHlo.after (hostOps5 (F := F)) W (Proc.devRef .tc main_v1) = W (Proc.devRef .tc main_v1) := by
  after_results_simp
theorem keep1_main_v3 (W : Valuation τ sig (Elt F)) :
    StableHlo.after (hostOps1 (F := F)) W (Proc.devRef .tc main_v3) = W (Proc.devRef .tc main_v3) := by
  after_results_simp
theorem keep2_main_v3 (W : Valuation τ sig (Elt F)) :
    StableHlo.after (hostOps2 (F := F)) W (Proc.devRef .tc main_v3) = W (Proc.devRef .tc main_v3) := by
  after_results_simp
theorem keep3_main_v3 (W : Valuation τ sig (Elt F)) :
    StableHlo.after (hostOps3 (F := F)) W (Proc.devRef .tc main_v3) = W (Proc.devRef .tc main_v3) := by
  after_results_simp
theorem keep4_main_v3 (W : Valuation τ sig (Elt F)) :
    StableHlo.after (hostOps4 (F := F)) W (Proc.devRef .tc main_v3) = W (Proc.devRef .tc main_v3) := by
  after_results_simp
theorem keep5_main_v3 (W : Valuation τ sig (Elt F)) :
    StableHlo.after (hostOps5 (F := F)) W (Proc.devRef .tc main_v3) = W (Proc.devRef .tc main_v3) := by
  after_results_simp
theorem keep1_main_v10 (W : Valuation τ sig (Elt F)) :
    StableHlo.after (hostOps1 (F := F)) W (Proc.devRef .tc main_v10) = W (Proc.devRef .tc main_v10) := by
  after_results_simp
theorem keep2_main_v10 (W : Valuation τ sig (Elt F)) :
    StableHlo.after (hostOps2 (F := F)) W (Proc.devRef .tc main_v10) = W (Proc.devRef .tc main_v10) := by
  after_results_simp
theorem keep3_main_v10 (W : Valuation τ sig (Elt F)) :
    StableHlo.after (hostOps3 (F := F)) W (Proc.devRef .tc main_v10) = W (Proc.devRef .tc main_v10) := by
  after_results_simp
theorem keep4_main_v10 (W : Valuation τ sig (Elt F)) :
    StableHlo.after (hostOps4 (F := F)) W (Proc.devRef .tc main_v10) = W (Proc.devRef .tc main_v10) := by
  after_results_simp
theorem keep5_main_v10 (W : Valuation τ sig (Elt F)) :
    StableHlo.after (hostOps5 (F := F)) W (Proc.devRef .tc main_v10) = W (Proc.devRef .tc main_v10) := by
  after_results_simp
theorem keep1_main_v11 (W : Valuation τ sig (Elt F)) :
    StableHlo.after (hostOps1 (F := F)) W (Proc.devRef .tc main_v11) = W (Proc.devRef .tc main_v11) := by
  after_results_simp
theorem keep2_main_v11 (W : Valuation τ sig (Elt F)) :
    StableHlo.after (hostOps2 (F := F)) W (Proc.devRef .tc main_v11) = W (Proc.devRef .tc main_v11) := by
  after_results_simp
theorem keep3_main_v11 (W : Valuation τ sig (Elt F)) :
    StableHlo.after (hostOps3 (F := F)) W (Proc.devRef .tc main_v11) = W (Proc.devRef .tc main_v11) := by
  after_results_simp
theorem keep4_main_v11 (W : Valuation τ sig (Elt F)) :
    StableHlo.after (hostOps4 (F := F)) W (Proc.devRef .tc main_v11) = W (Proc.devRef .tc main_v11) := by
  after_results_simp
theorem keep5_main_v11 (W : Valuation τ sig (Elt F)) :
    StableHlo.after (hostOps5 (F := F)) W (Proc.devRef .tc main_v11) = W (Proc.devRef .tc main_v11) := by
  after_results_simp
theorem keep0_main_arg0 (W : Valuation τ sig (Elt F)) :
    StableHlo.after (hostOps0 (F := F)) W (Proc.devRef .tc main_arg0) = W (Proc.devRef .tc main_arg0) := by
  after_results_simp
theorem keep0_main_arg2 (W : Valuation τ sig (Elt F)) :
    StableHlo.after (hostOps0 (F := F)) W (Proc.devRef .tc main_arg2) = W (Proc.devRef .tc main_arg2) := by
  after_results_simp
theorem keep0_main_arg4 (W : Valuation τ sig (Elt F)) :
    StableHlo.after (hostOps0 (F := F)) W (Proc.devRef .tc main_arg4) = W (Proc.devRef .tc main_arg4) := by
  after_results_simp
theorem keep1_main_arg4 (W : Valuation τ sig (Elt F)) :
    StableHlo.after (hostOps1 (F := F)) W (Proc.devRef .tc main_arg4) = W (Proc.devRef .tc main_arg4) := by
  after_results_simp
theorem keep0_main_arg5 (W : Valuation τ sig (Elt F)) :
    StableHlo.after (hostOps0 (F := F)) W (Proc.devRef .tc main_arg5) = W (Proc.devRef .tc main_arg5) := by
  after_results_simp
theorem keep1_main_arg5 (W : Valuation τ sig (Elt F)) :
    StableHlo.after (hostOps1 (F := F)) W (Proc.devRef .tc main_arg5) = W (Proc.devRef .tc main_arg5) := by
  after_results_simp
theorem keep0_main_arg6 (W : Valuation τ sig (Elt F)) :
    StableHlo.after (hostOps0 (F := F)) W (Proc.devRef .tc main_arg6) = W (Proc.devRef .tc main_arg6) := by
  after_results_simp
theorem keep1_main_arg6 (W : Valuation τ sig (Elt F)) :
    StableHlo.after (hostOps1 (F := F)) W (Proc.devRef .tc main_arg6) = W (Proc.devRef .tc main_arg6) := by
  after_results_simp
theorem keep2_main_arg6 (W : Valuation τ sig (Elt F)) :
    StableHlo.after (hostOps2 (F := F)) W (Proc.devRef .tc main_arg6) = W (Proc.devRef .tc main_arg6) := by
  after_results_simp
theorem keep3_main_arg6 (W : Valuation τ sig (Elt F)) :
    StableHlo.after (hostOps3 (F := F)) W (Proc.devRef .tc main_arg6) = W (Proc.devRef .tc main_arg6) := by
  after_results_simp
theorem keep0_main_arg7 (W : Valuation τ sig (Elt F)) :
    StableHlo.after (hostOps0 (F := F)) W (Proc.devRef .tc main_arg7) = W (Proc.devRef .tc main_arg7) := by
  after_results_simp
theorem keep1_main_arg7 (W : Valuation τ sig (Elt F)) :
    StableHlo.after (hostOps1 (F := F)) W (Proc.devRef .tc main_arg7) = W (Proc.devRef .tc main_arg7) := by
  after_results_simp
theorem keep2_main_arg7 (W : Valuation τ sig (Elt F)) :
    StableHlo.after (hostOps2 (F := F)) W (Proc.devRef .tc main_arg7) = W (Proc.devRef .tc main_arg7) := by
  after_results_simp
theorem keep3_main_arg7 (W : Valuation τ sig (Elt F)) :
    StableHlo.after (hostOps3 (F := F)) W (Proc.devRef .tc main_arg7) = W (Proc.devRef .tc main_arg7) := by
  after_results_simp
theorem keep0_main_arg8 (W : Valuation τ sig (Elt F)) :
    StableHlo.after (hostOps0 (F := F)) W (Proc.devRef .tc main_arg8) = W (Proc.devRef .tc main_arg8) := by
  after_results_simp
theorem keep1_main_arg8 (W : Valuation τ sig (Elt F)) :
    StableHlo.after (hostOps1 (F := F)) W (Proc.devRef .tc main_arg8) = W (Proc.devRef .tc main_arg8) := by
  after_results_simp
theorem keep2_main_arg8 (W : Valuation τ sig (Elt F)) :
    StableHlo.after (hostOps2 (F := F)) W (Proc.devRef .tc main_arg8) = W (Proc.devRef .tc main_arg8) := by
  after_results_simp
theorem keep3_main_arg8 (W : Valuation τ sig (Elt F)) :
    StableHlo.after (hostOps3 (F := F)) W (Proc.devRef .tc main_arg8) = W (Proc.devRef .tc main_arg8) := by
  after_results_simp
theorem keep4_main_arg8 (W : Valuation τ sig (Elt F)) :
    StableHlo.after (hostOps4 (F := F)) W (Proc.devRef .tc main_arg8) = W (Proc.devRef .tc main_arg8) := by
  after_results_simp
theorem keep5_main_arg8 (W : Valuation τ sig (Elt F)) :
    StableHlo.after (hostOps5 (F := F)) W (Proc.devRef .tc main_arg8) = W (Proc.devRef .tc main_arg8) := by
  after_results_simp
theorem keep0_main_arg9 (W : Valuation τ sig (Elt F)) :
    StableHlo.after (hostOps0 (F := F)) W (Proc.devRef .tc main_arg9) = W (Proc.devRef .tc main_arg9) := by
  after_results_simp
theorem keep1_main_arg9 (W : Valuation τ sig (Elt F)) :
    StableHlo.after (hostOps1 (F := F)) W (Proc.devRef .tc main_arg9) = W (Proc.devRef .tc main_arg9) := by
  after_results_simp
theorem keep2_main_arg9 (W : Valuation τ sig (Elt F)) :
    StableHlo.after (hostOps2 (F := F)) W (Proc.devRef .tc main_arg9) = W (Proc.devRef .tc main_arg9) := by
  after_results_simp
theorem keep3_main_arg9 (W : Valuation τ sig (Elt F)) :
    StableHlo.after (hostOps3 (F := F)) W (Proc.devRef .tc main_arg9) = W (Proc.devRef .tc main_arg9) := by
  after_results_simp
theorem keep4_main_arg9 (W : Valuation τ sig (Elt F)) :
    StableHlo.after (hostOps4 (F := F)) W (Proc.devRef .tc main_arg9) = W (Proc.devRef .tc main_arg9) := by
  after_results_simp
theorem keep5_main_arg9 (W : Valuation τ sig (Elt F)) :
    StableHlo.after (hostOps5 (F := F)) W (Proc.devRef .tc main_arg9) = W (Proc.devRef .tc main_arg9) := by
  after_results_simp
theorem keep1_main_v13 (W : Valuation τ sig (Elt F)) :
    StableHlo.after (hostOps1 (F := F)) W (Proc.devRef .tc main_v13) = W (Proc.devRef .tc main_v13) := by
  after_results_simp
theorem keep2_main_v16 (W : Valuation τ sig (Elt F)) :
    StableHlo.after (hostOps2 (F := F)) W (Proc.devRef .tc main_v16) = W (Proc.devRef .tc main_v16) := by
  after_results_simp
theorem keep3_main_v47 (W : Valuation τ sig (Elt F)) :
    StableHlo.after (hostOps3 (F := F)) W (Proc.devRef .tc main_v47) = W (Proc.devRef .tc main_v47) := by
  after_results_simp
theorem keep4_main_v50 (W : Valuation τ sig (Elt F)) :
    StableHlo.after (hostOps4 (F := F)) W (Proc.devRef .tc main_v50) = W (Proc.devRef .tc main_v50) := by
  after_results_simp
theorem keep5_main_v81 (W : Valuation τ sig (Elt F)) :
    StableHlo.after (hostOps5 (F := F)) W (Proc.devRef .tc main_v81) = W (Proc.devRef .tc main_v81) := by
  after_results_simp
theorem keep6_main_v84 (W : Valuation τ sig (Elt F)) :
    StableHlo.after (hostOps6 (F := F)) W (Proc.devRef .tc main_v84) = W (Proc.devRef .tc main_v84) := by
  after_results_simp

end Cert.KernelIdeal.Carry

end
-- ==== Proof.RowScale.lean ====
/-
  The arithmetic of extended reals that the last stage needs, and nothing else.

  The kernel scales a row by the reciprocal of its clamped norm, `h · (1 / d)`, where the reference divides, `h / d`,
  with `d = max (√(Σ h²)) ε` and `ε` the positive float nearest 10⁻¹². On the extended reals a quotient by a nonzero
  `d` is the product with `d⁻¹`, whatever `d` is (an infinity's inverse is `0`), so the two agree as soon as `d ≠ 0`;
  and `d ≥ ε > 0`. No entry needs to be finite for this.
-/
import Idealize.ShloMosaic.PureOps.Ideal

noncomputable section

namespace Cert.RowScale

open Idealize.ShloMosaic

/-- The float pattern of `1.0` denotes the real `1`. -/
theorem ofBits_one : Ideal.ofBits .f32 0x3F800000#32 = 1 := by
  simp [Ideal.ofBits, Ideal.ieee, -EReal.coe_mul]; norm_num

/-- The clamp `ε` (the float nearest 10⁻¹²) is a positive real. -/
theorem eps_pos : (0 : EReal) < Ideal.ofBits .f32 0x2B8CBCCC#32 := by
  simp [Ideal.ofBits, Ideal.ieee, -EReal.coe_mul]

/-- Anything clamped below by a positive number is not zero. -/
theorem clamp_ne_zero (s e : EReal) (he : 0 < e) : max s e ≠ 0 :=
  ne_of_gt (lt_of_lt_of_le he (le_max_right s e))

/-- Scaling by the reciprocal of a nonzero `d` is dividing by `d`: both are the product with `d⁻¹`. -/
theorem mul_one_div (x d : EReal) (hd : d ≠ 0) : x * Ideal.div 1 d = Ideal.div x d := by
  unfold Ideal.div
  rw [if_neg hd, if_neg hd, one_mul]

/-- The last stage's law at one entry: `h · (1 / max s ε) = h / max s ε`. -/
theorem scale_eq_div (x s : EReal) :
    x * Ideal.div (Ideal.ofBits .f32 0x3F800000#32) (max s (Ideal.ofBits .f32 0x2B8CBCCC#32))
      = Ideal.div x (max s (Ideal.ofBits .f32 0x2B8CBCCC#32)) := by
  rw [ofBits_one]
  exact mul_one_div x _ (clamp_ne_zero s _ eps_pos)

end Cert.RowScale

end
-- ==== Proof.RefLayers.lean ====
/-
  The reference's host operations, read entry by entry, are the layer functions.

  * A `dot_general` of a [100000, 64] array with a [64, 64] matrix is `affine64` with a zero bias row (`s + 0 = s`
    on every extended real).
  * `x·W` plus the bias vector broadcast along the rows is `affine128` with the bias as a one-row matrix.
  * The aggregated messages plus the node's own features times its squared inverse root degree (a vector broadcast
    along the lanes) plus the bias (a vector broadcast along the rows), clamped at zero or not, is `selfLoopRelu` /
    `selfLoop` with the degree vector as a column and the bias as a one-row matrix.
  * `h / max(√(Σ_k h²), ε)` is `unitRows h`: the reference's initial value of the row sum is zero, and dividing by a
    nonzero clamp is scaling by its reciprocal (`RowScale.scale_eq_div`).
-/
import proofs.«135448_j90589450207317_1_alg».proof.Proof.Layers
import proofs.«135448_j90589450207317_1_alg».proof.Proof.RowScale
import proofs.«135448_j90589450207317_1_alg».proof.Proof.Gen.ReferenceIdeal.Read

noncomputable section

namespace Cert.RefLayers

open Idealize.ShloMosaic Idealize.ShloMosaic.ValueIdx Cert.KernelIdeal.Layers
open Cert.ReferenceIdeal (S100000x128 S128x64 S64 S64x64 S100000x64 S1x64 S100000 S100000x1 S_)

/-! ### Broadcasts of a vector, read at an entry -/

/-- A [100000] vector laid along the lanes (first as a column, then across 64 lanes) reads, at (r, q), its entry r. -/
theorem bcast_col (v : FVec Ideal S100000 .f32) (r : Fin 100000) (q : Fin 64) :
    broadcastInDim S100000x64 (![0, 1] : Fin 2 → Fin 2) Cert.ReferenceIdeal.Gen.bcast_S100000x1_S100000x64_0_1 (broadcastInDim S100000x1 (![0] : Fin 1 → Fin 2) Cert.ReferenceIdeal.Gen.bcast_S100000_S100000x1_0 v) (ix2 r q) = v (ix1 r) :=
  (broadcastInDim_apply _ Cert.ReferenceIdeal.Gen.bcast_S100000x1_S100000x64_0_1 _ (ix2 r q) (ix2 r (0 : Fin 1)) (fun a => match a with
    | ⟨0, _⟩ => by show r.val = if (100000 : Nat) = 1 then 0 else r.val; rw [if_neg (by decide)]
    | ⟨1, _⟩ => by show 0 = if (1 : Nat) = 1 then 0 else q.val; rw [if_pos rfl])).trans
  (broadcastInDim_apply _ Cert.ReferenceIdeal.Gen.bcast_S100000_S100000x1_0 v (ix2 r (0 : Fin 1)) (ix1 r) (fun a => match a with
    | ⟨0, _⟩ => by show r.val = if (100000 : Nat) = 1 then 0 else r.val; rw [if_neg (by decide)]))

/-- A [64] vector laid along the rows (first as one row, then down 100000 rows) reads, at (r, q), its entry q. -/
theorem bcast_row (v : FVec Ideal S64 .f32) (r : Fin 100000) (q : Fin 64) :
    broadcastInDim S100000x64 (![0, 1] : Fin 2 → Fin 2) Cert.ReferenceIdeal.Gen.bcast_S1x64_S100000x64_0_1 (broadcastInDim S1x64 (![1] : Fin 1 → Fin 2) Cert.ReferenceIdeal.Gen.bcast_S64_S1x64_1 v) (ix2 r q) = v (ix1 q) :=
  (broadcastInDim_apply _ Cert.ReferenceIdeal.Gen.bcast_S1x64_S100000x64_0_1 _ (ix2 r q) (ix2 (0 : Fin 1) q) (fun a => match a with
    | ⟨0, _⟩ => by show 0 = if (1 : Nat) = 1 then 0 else r.val; rw [if_pos rfl]
    | ⟨1, _⟩ => by show q.val = if (64 : Nat) = 1 then 0 else q.val; rw [if_neg (by decide)])).trans
  (broadcastInDim_apply _ Cert.ReferenceIdeal.Gen.bcast_S64_S1x64_1 v (ix2 (0 : Fin 1) q) (ix1 q) (fun a => match a with
    | ⟨0, _⟩ => by show q.val = if (64 : Nat) = 1 then 0 else q.val; rw [if_neg (by decide)]))

/-! ### The matrix products -/

/-- The reference's product with a [64, 64] matrix at entry (r, q): row r against column q. -/
theorem dot64_apply (h : FVec Ideal S100000x64 .f32) (W : FVec Ideal S64x64 .f32) (r : Fin 100000) (q : Fin 64) :
    Host.dotGeneral (F := Ideal) Cert.ReferenceIdeal.dot_S100000x64_S64x64_S100000x64_1_0_0_1_n_n none h W (ix2 r q) = ∑ k : Fin 64, h (ix2 r k) * W (ix2 k q) := by
  simp only [Host.dotGeneral]
  rw [Ideal.dotGeneral_apply, ← Equiv.sum_comp (ValueIdx.contrEquiv1 Cert.ReferenceIdeal.dot_S100000x64_S64x64_S100000x64_1_0_0_1_n_n 64 rfl rfl).symm]
  refine Finset.sum_congr rfl fun k _ => ?_
  have hk := ValueIdx.contrEquiv1_symm_val Cert.ReferenceIdeal.dot_S100000x64_S64x64_S100000x64_1_0_0_1_n_n 64 rfl rfl k
  have el : Cert.ReferenceIdeal.dot_S100000x64_S64x64_S100000x64_1_0_0_1_n_n.lhsIdx (ix2 r q) ((ValueIdx.contrEquiv1 Cert.ReferenceIdeal.dot_S100000x64_S64x64_S100000x64_1_0_0_1_n_n 64 rfl rfl).symm k) = ix2 r k := funext fun a => Fin.ext (by
    match a with
    | ⟨0, _⟩ => exact Cert.ReferenceIdeal.Read.lhs_main_v15_0 _ _
    | ⟨1, _⟩ => exact (Cert.ReferenceIdeal.Read.lhs_main_v15_1 _ _).trans hk)
  have er : Cert.ReferenceIdeal.dot_S100000x64_S64x64_S100000x64_1_0_0_1_n_n.rhsIdx (ix2 r q) ((ValueIdx.contrEquiv1 Cert.ReferenceIdeal.dot_S100000x64_S64x64_S100000x64_1_0_0_1_n_n 64 rfl rfl).symm k) = ix2 k q := funext fun a => Fin.ext (by
    match a with
    | ⟨0, _⟩ => exact (Cert.ReferenceIdeal.Read.rhs_main_v15_0 _ _).trans hk
    | ⟨1, _⟩ => exact Cert.ReferenceIdeal.Read.rhs_main_v15_1 _ _)
  rw [el, er]

/-- A linear layer whose bias row is zero is the reference's bare product. -/
theorem affine64_zero_eq (h : FVec Ideal S100000x64 .f32) (W : FVec Ideal S64x64 .f32) (b : FVec Ideal S1x64 .f32)
    (hb : ∀ q : Fin 64, b (ix2 (0 : Fin 1) q) = Ideal.ofBits .f32 0x00000000#32) :
    affine64 h W b = Host.dotGeneral (F := Ideal) Cert.ReferenceIdeal.dot_S100000x64_S64x64_S100000x64_1_0_0_1_n_n none h W := by
  funext i
  obtain ⟨r, q, rfl⟩ : ∃ (r : Fin 100000) (q : Fin 64), i = ix2 r q := ⟨i 0, i 1, eq_ix2 i⟩
  rw [dot64_apply]
  show (∑ k : Fin 64, h (ix2 r k) * W (ix2 k q)) + b (ix2 (0 : Fin 1) q) = ∑ k : Fin 64, h (ix2 r k) * W (ix2 k q)
  rw [hb, Ideal.ofBits_zero_f32, add_zero]

/-- The first layer: the product plus the bias vector laid along the rows. -/
theorem affine128_eq (x0 : FVec Ideal S100000x128 .f32) (x2 : FVec Ideal S128x64 .f32) (x3 : FVec Ideal S64 .f32)
    (b : FVec Ideal S1x64 .f32) (hb : ∀ q : Fin 64, b (ix2 (0 : Fin 1) q) = x3 (ix1 q)) :
    affine128 x0 x2 b = Cert.ReferenceIdeal.Read.val_main_v14 (F := Ideal) x0 x2 x3 := by
  funext i
  obtain ⟨r, q, rfl⟩ : ∃ (r : Fin 100000) (q : Fin 64), i = ix2 r q := ⟨i 0, i 1, eq_ix2 i⟩
  rw [Cert.ReferenceIdeal.Read.val_main_v14_apply, Cert.ReferenceIdeal.Read.val_main_v11_apply, Cert.ReferenceIdeal.Read.val_main_v13_apply, Cert.ReferenceIdeal.Read.val_main_v12_apply]
  show (∑ k : Fin 128, x0 (ix2 r k) * x2 (ix2 k q)) + b (ix2 (0 : Fin 1) q)
    = (∑ k : Fin 128, x0 (Cert.ReferenceIdeal.Read.lidx_main_v11 (ix2 r q) k) * x2 (Cert.ReferenceIdeal.Read.ridx_main_v11 (ix2 r q) k))
      + x3 (Cert.ReferenceIdeal.Read.idx_main_v12 (Cert.ReferenceIdeal.Read.idx_main_v13 (ix2 r q)))
  rw [hb]
  refine congrArg₂ (· + ·) (Finset.sum_congr rfl fun k _ => congrArg₂ (· * ·) (congrArg x0 ?_) (congrArg x2 ?_)) (congrArg x3 ?_)
  · funext a; apply Fin.ext; match a with | ⟨0, _⟩ => rfl | ⟨1, _⟩ => rfl
  · funext a; apply Fin.ext; match a with | ⟨0, _⟩ => rfl | ⟨1, _⟩ => rfl
  · funext a; apply Fin.ext; match a with | ⟨0, _⟩ => rfl

/-! ### The self-loop, bias and clamp -/

/-- The unclamped form. -/
theorem selfLoop_eq (agg hw : FVec Ideal S100000x64 .f32) (d' : FVec Ideal S100000 .f32) (b' : FVec Ideal S64 .f32)
    (d : FVec Ideal S100000x1 .f32) (b : FVec Ideal S1x64 .f32)
    (hd : ∀ r : Fin 100000, d (ix2 r (0 : Fin 1)) = d' (ix1 r)) (hb : ∀ q : Fin 64, b (ix2 (0 : Fin 1) q) = b' (ix1 q)) :
    selfLoop agg hw d b = addf (addf agg (mulf hw (broadcastInDim S100000x64 (![0, 1] : Fin 2 → Fin 2) Cert.ReferenceIdeal.Gen.bcast_S100000x1_S100000x64_0_1 (broadcastInDim S100000x1 (![0] : Fin 1 → Fin 2) Cert.ReferenceIdeal.Gen.bcast_S100000_S100000x1_0 d')))) (broadcastInDim S100000x64 (![0, 1] : Fin 2 → Fin 2) Cert.ReferenceIdeal.Gen.bcast_S1x64_S100000x64_0_1 (broadcastInDim S1x64 (![1] : Fin 1 → Fin 2) Cert.ReferenceIdeal.Gen.bcast_S64_S1x64_1 b')) := by
  funext i
  obtain ⟨r, q, rfl⟩ : ∃ (r : Fin 100000) (q : Fin 64), i = ix2 r q := ⟨i 0, i 1, eq_ix2 i⟩
  show (agg (ix2 r q) + hw (ix2 r q) * d (ix2 r (0 : Fin 1))) + b (ix2 (0 : Fin 1) q)
    = (agg (ix2 r q) + hw (ix2 r q) * (broadcastInDim S100000x64 (![0, 1] : Fin 2 → Fin 2) Cert.ReferenceIdeal.Gen.bcast_S100000x1_S100000x64_0_1 (broadcastInDim S100000x1 (![0] : Fin 1 → Fin 2) Cert.ReferenceIdeal.Gen.bcast_S100000_S100000x1_0 d') (ix2 r q))) + (broadcastInDim S100000x64 (![0, 1] : Fin 2 → Fin 2) Cert.ReferenceIdeal.Gen.bcast_S1x64_S100000x64_0_1 (broadcastInDim S1x64 (![1] : Fin 1 → Fin 2) Cert.ReferenceIdeal.Gen.bcast_S64_S1x64_1 b') (ix2 r q))
  rw [bcast_col, bcast_row, hd, hb]

/-- The clamped form: the reference clamps against a zero constant broadcast to the whole array. -/
theorem selfLoopRelu_eq (agg hw : FVec Ideal S100000x64 .f32) (d' : FVec Ideal S100000 .f32) (b' : FVec Ideal S64 .f32)
    (d : FVec Ideal S100000x1 .f32) (b : FVec Ideal S1x64 .f32)
    (hd : ∀ r : Fin 100000, d (ix2 r (0 : Fin 1)) = d' (ix1 r)) (hb : ∀ q : Fin 64, b (ix2 (0 : Fin 1) q) = b' (ix1 q)) :
    selfLoopRelu agg hw d b
      = maximumf (addf (addf agg (mulf hw (broadcastInDim S100000x64 (![0, 1] : Fin 2 → Fin 2) Cert.ReferenceIdeal.Gen.bcast_S100000x1_S100000x64_0_1 (broadcastInDim S100000x1 (![0] : Fin 1 → Fin 2) Cert.ReferenceIdeal.Gen.bcast_S100000_S100000x1_0 d')))) (broadcastInDim S100000x64 (![0, 1] : Fin 2 → Fin 2) Cert.ReferenceIdeal.Gen.bcast_S1x64_S100000x64_0_1 (broadcastInDim S1x64 (![1] : Fin 1 → Fin 2) Cert.ReferenceIdeal.Gen.bcast_S64_S1x64_1 b'))) (broadcastInDim S100000x64 (![] : Fin 0 → Fin 2) Cert.ReferenceIdeal.Gen.bcast_S_S100000x64 (constant (F := Ideal) S_ .f32 0x00000000#32)) := by
  funext i
  show max (selfLoop agg hw d b i) (Ideal.ofBits .f32 0x00000000#32) = max _ _
  rw [selfLoop_eq agg hw d' b' d b hd hb]
  rfl

/-! ### The row normalization -/

/-- The reference's row sum of squares at row r: its zero initial value plus the sum over the lanes. -/
theorem rowSum_apply (h : FVec Ideal S100000x64 .f32) (r : Fin 100000) :
    Host.reduceAdd (F := Ideal) (mulf h h) (constant (F := Ideal) S_ .f32 0x00000000#32) Cert.ReferenceIdeal.Gen.reducesTo_S100000x64_S100000_d1 Cert.ReferenceIdeal.Gen.h_S_ (ix1 r) = ∑ k : Fin 64, h (ix2 r k) * h (ix2 r k) := by
  simp only [Host.reduceAdd, Ideal.hostReduceAdd_def]
  rw [Ideal.hostReduceAdd_single Cert.ReferenceIdeal.Gen.reducesTo_S100000x64_S100000_d1 (by decide)]
  show Ideal.ofBits .f32 0x00000000#32 + _ = _
  rw [Ideal.ofBits_zero_f32, zero_add]
  refine Finset.sum_congr rfl fun k _ => ?_
  have e : ∀ (hr : S100000x64.Reduces [1] S100000), (hr.lift (ix1 r) k : S100000x64.Idx) = ix2 r k := fun hr => by
    funext a; apply Fin.ext; match a with | ⟨0, _⟩ => rfl | ⟨1, _⟩ => rfl
  exact congrArg₂ (· * ·) (congrArg h (e _)) (congrArg h (e _))

/-- A quotient by a column laid across the lanes, at entry (r, q): the quotient by the column's entry r. -/
theorem div_bcast_apply (h : FVec Ideal S100000x64 .f32) (X : FVec Ideal S100000x1 .f32) (r : Fin 100000) (q : Fin 64) :
    Host.divf (F := Ideal) h (broadcastInDim S100000x64 (![0, 1] : Fin 2 → Fin 2) Cert.ReferenceIdeal.Gen.bcast_S100000x1_S100000x64_0_1 X) (ix2 r q) = Ideal.div (h (ix2 r q)) (X (ix2 r (0 : Fin 1))) :=
  congrArg (Ideal.div (h (ix2 r q))) (broadcastInDim_apply _ Cert.ReferenceIdeal.Gen.bcast_S100000x1_S100000x64_0_1 X (ix2 r q) (ix2 r (0 : Fin 1)) (fun a => match a with
    | ⟨0, _⟩ => by show r.val = if (100000 : Nat) = 1 then 0 else r.val; rw [if_neg (by decide)]
    | ⟨1, _⟩ => by show 0 = if (1 : Nat) = 1 then 0 else q.val; rw [if_pos rfl]))

/-- The clamped root of a vector laid out as a column, at (r, 0). -/
theorem clampRoot_apply (S : FVec Ideal S100000 .f32) (r : Fin 100000) :
    maximumf (Host.sqrt (F := Ideal) (broadcastInDim S100000x1 (![0] : Fin 1 → Fin 2) Cert.ReferenceIdeal.Gen.bcast_S100000_S100000x1_0 S)) (broadcastInDim S100000x1 (![] : Fin 0 → Fin 2) Cert.ReferenceIdeal.Gen.bcast_S_S100000x1 (constant (F := Ideal) S_ .f32 0x2B8CBCCC#32)) (ix2 r (0 : Fin 1))
      = max (Ideal.sqrt (S (ix1 r))) (Ideal.ofBits .f32 0x2B8CBCCC#32) :=
  congrArg₂ max
    (congrArg Ideal.sqrt (broadcastInDim_apply _ Cert.ReferenceIdeal.Gen.bcast_S100000_S100000x1_0 S (ix2 r (0 : Fin 1)) (ix1 r) (fun a => match a with
    | ⟨0, _⟩ => by show r.val = if (100000 : Nat) = 1 then 0 else r.val; rw [if_neg (by decide)])))
    (broadcastInDim_apply _ Cert.ReferenceIdeal.Gen.bcast_S_S100000x1 (constant (F := Ideal) S_ .f32 0x2B8CBCCC#32) (ix2 r (0 : Fin 1)) ix0 (fun a => a.elim0))

/-- The whole normalization, as the reference spells it. -/
theorem unitRows_eq (h : FVec Ideal S100000x64 .f32) :
    unitRows h
      = Host.divf (F := Ideal) h (broadcastInDim S100000x64 (![0, 1] : Fin 2 → Fin 2) Cert.ReferenceIdeal.Gen.bcast_S100000x1_S100000x64_0_1
          (maximumf (Host.sqrt (F := Ideal) (broadcastInDim S100000x1 (![0] : Fin 1 → Fin 2) Cert.ReferenceIdeal.Gen.bcast_S100000_S100000x1_0 (Host.reduceAdd (F := Ideal) (mulf h h) (constant (F := Ideal) S_ .f32 0x00000000#32) Cert.ReferenceIdeal.Gen.reducesTo_S100000x64_S100000_d1 Cert.ReferenceIdeal.Gen.h_S_))) (broadcastInDim S100000x1 (![] : Fin 0 → Fin 2) Cert.ReferenceIdeal.Gen.bcast_S_S100000x1 (constant (F := Ideal) S_ .f32 0x2B8CBCCC#32)))) := by
  funext i
  obtain ⟨r, q, rfl⟩ : ∃ (r : Fin 100000) (q : Fin 64), i = ix2 r q := ⟨i 0, i 1, eq_ix2 i⟩
  rw [div_bcast_apply, clampRoot_apply, rowSum_apply]
  exact Cert.RowScale.scale_eq_div (h (ix2 r q)) _

end Cert.RefLayers

end
-- ==== Proof.Region4.lean ====
/-
  Region 4: the second self-loop, bias and clamp, tiled over 50 blocks of 2000 rows. Grid point `t` reads rows `2000·t … 2000·t + 1999` of
  each row-tiled operand (and the small operands whole) and writes the same rows of the result, so the result array
  after the region is ONE function, `Layers.selfLoopRelu`, of the arrays as the region finds them. Row `r` lies in the
  block of point `r / 2000`, so the blocks cover the array.
-/
import proofs.«135448_j90589450207317_1_alg».proof.Proof.Gen.KernelIdeal.Frame
import proofs.«135448_j90589450207317_1_alg».proof.Proof.Layers
import Idealize.ShloMosaic.Lib.Pipeline.Value

noncomputable section

namespace Cert.KernelIdeal.Region4

open Cert.KernelIdeal Cert.KernelIdeal.Gen Cert.KernelIdeal.Layers
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: a row-tiled window sits at block `t`, a whole operand at block 0. -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

/-- What point `t` writes back is block `t` of the layer function of the arrays as the region finds them. -/
theorem flushed_eq (c : Dev nD) (t : Fin cfg4.N) :
    (dat4 V c).flushed 4 t = ((cfg4.win 4).blk t).view.read (Elt Ideal) (selfLoopRelu (V c main_v78) (V c main_v50) (V c main_v80) (V c main_v79)) := by
  show (cfg4.win 4).cut (grid4.coords t) ((dat4 V c).after 4 t) = _
  rw [after4_4]
  unfold out4_4
  rw [View.canon_unit_zero hz]
  simp only [View.ld_unit_zero (S := S2000x64) hz, View.ld_unit_zero (S := S2000x1) hz, View.ld_unit_zero (S := S1x64) hz]
  obtain ⟨e00, e01, e10, e11, e20, e21, e30, e31, eo0, eo1⟩ := idx_facts t
  funext j
  obtain ⟨p, q, rfl⟩ : ∃ (p : Fin 2000) (q : Fin 64), j = ix2 p q := ⟨j 0, j 1, eq_ix2 j⟩
  show k4_pay1 (F := Ideal) (iblk4 V c 0 t) (iblk4 V c 1 t) (iblk4 V c 2 t) (iblk4 V c 3 t) (ix2 p q)
    = selfLoopRelu (V c main_v78) (V c main_v50) (V c main_v80) (V c main_v79) (((cfg4.win 4).blk t).view.emb (ix2 p q))
  refine (block4 (V c main_v78) (V c main_v50) (V c main_v80) (V c main_v79) (iblk4 V c 0 t) (iblk4 V c 1 t) (iblk4 V c 2 t) (iblk4 V c 3 t)
    ((((cfg4.win 4).blk t).view.emb (ix2 p q)) 0) p q ?_ ?_ ?_ ?_).trans ?_
  · show V c main_v78 (((cfg4.win 0).blk t).view.emb (ix2 p q)) = V c main_v78 _
    refine congrArg (V c main_v78) (funext fun a => Fin.ext ?_)
    match a with
    | ⟨0, _⟩ => show win4_0.index t (0 : Fin 2) * 2000 + 1 * p.val = win4_4.index t (0 : Fin 2) * 2000 + 1 * p.val; omega
    | ⟨1, _⟩ => show win4_0.index t (1 : Fin 2) * 64 + 1 * q.val = q.val; omega
  · show V c main_v50 (((cfg4.win 1).blk t).view.emb (ix2 p q)) = V c main_v50 _
    refine congrArg (V c main_v50) (funext fun a => Fin.ext ?_)
    match a with
    | ⟨0, _⟩ => show win4_1.index t (0 : Fin 2) * 2000 + 1 * p.val = win4_4.index t (0 : Fin 2) * 2000 + 1 * p.val; omega
    | ⟨1, _⟩ => show win4_1.index t (1 : Fin 2) * 64 + 1 * q.val = q.val; omega
  · show V c main_v80 (((cfg4.win 2).blk t).view.emb (ix2 p (0 : Fin 1))) = V c main_v80 _
    refine congrArg (V c main_v80) (funext fun a => Fin.ext ?_)
    match a with
    | ⟨0, _⟩ => show win4_2.index t (0 : Fin 2) * 2000 + 1 * p.val = win4_4.index t (0 : Fin 2) * 2000 + 1 * p.val; omega
    | ⟨1, _⟩ => show win4_2.index t (1 : Fin 2) * 1 + 1 * 0 = 0; omega
  · funext y
    show V c main_v79 (((cfg4.win 3).blk t).view.emb y) = V c main_v79 y
    refine congrArg (V c main_v79) (funext fun a => Fin.ext ?_)
    match a with
    | ⟨0, _⟩ => show win4_3.index t (0 : Fin 2) * 1 + 1 * (y 0).val = (y 0).val; omega
    | ⟨1, _⟩ => show win4_3.index t (1 : Fin 2) * 64 + 1 * (y 1).val = (y 1).val; omega
  · refine congrArg (selfLoopRelu (V c main_v78) (V c main_v50) (V c main_v80) (V c main_v79)) (funext fun a => Fin.ext ?_)
    match a with
    | ⟨0, _⟩ => rfl
    | ⟨1, _⟩ => show q.val = win4_4.index t (1 : Fin 2) * 64 + 1 * q.val; omega

/-- An index of the result array is in point `t`'s block iff each coordinate is in the block's range on its axis. -/
theorem mem_blk (t : Fin cfg4.N) (i : S100000x64.Idx) :
    i ∈ ((cfg4.win 4).blk t).view.set ↔ ∀ a : Fin 2, win4_4.index t a * S2000x64.size a ≤ (i a).val ∧ (i a).val < win4_4.index t a * S2000x64.size a + S2000x64.size a := by
  show i ∈ ((View.whole main_v81).slice (win4_4.rect t)).set ↔ _
  rw [View.set_slice_whole, Rect.mem_set_unit]
  exact Iff.rfl

/-- Row `r` lies in the block of point `r / 2000`: the blocks cover the array. -/
theorem cover (i : S100000x64.Idx) : ∃ t : Fin cfg4.N, (cfg4.win 4).flush t = true ∧ i ∈ ((cfg4.win 4).blk t).view.set := by
  have hi0 : (i 0).val < 100000 := (i 0).isLt
  have hi1 : (i 1).val < 64 := (i 1).isLt
  have ht : (i 0).val / 2000 < grid4.N := by rw [N_4]; omega
  refine ⟨⟨(i 0).val / 2000, ht⟩, flush4_4 _, ?_⟩
  rw [mem_blk]
  obtain ⟨-, -, -, -, -, -, -, -, eo0, eo1⟩ := idx_facts ⟨(i 0).val / 2000, ht⟩
  have eo0' : win4_4.index ⟨(i 0).val / 2000, ht⟩ (0 : Fin 2) = (i 0).val / 2000 := eo0
  intro a
  match a with
  | ⟨0, _⟩ => show win4_4.index _ (0 : Fin 2) * 2000 ≤ (i 0).val ∧ (i 0).val < win4_4.index _ (0 : Fin 2) * 2000 + 2000; rw [eo0']; omega
  | ⟨1, _⟩ => show win4_4.index _ (1 : Fin 2) * 64 ≤ (i 1).val ∧ (i 1).val < win4_4.index _ (1 : Fin 2) * 64 + 64; rw [eo1]; omega

/-- The result array after the region is the layer function of the arrays as the region finds them. -/
theorem final (c : Dev nD) :
    (dat4 V c).arrAt 4 cfg4.N = selfLoopRelu (V c main_v78) (V c main_v50) (V c main_v80) (V c main_v79) :=
  (dat4 V c).arrAt_eq_of_cover 4 (selfLoopRelu (V c main_v78) (V c main_v50) (V c main_v80) (V c main_v79)) (fun t _ => flushed_eq V c t) cover

end Cert.KernelIdeal.Region4

end
-- ==== Proof.Region5.lean ====
/-
  Region 5: the third hidden linear layer, tiled over 50 blocks of 2000 rows. Grid point `t` reads rows `2000·t … 2000·t + 1999` of
  each row-tiled operand (and the small operands whole) and writes the same rows of the result, so the result array
  after the region is ONE function, `Layers.affine64`, of the arrays as the region finds them. Row `r` lies in the
  block of point `r / 2000`, so the blocks cover the array.
-/
import proofs.«135448_j90589450207317_1_alg».proof.Proof.Gen.KernelIdeal.Frame
import proofs.«135448_j90589450207317_1_alg».proof.Proof.Layers
import Idealize.ShloMosaic.Lib.Pipeline.Value

noncomputable section

namespace Cert.KernelIdeal.Region5

open Cert.KernelIdeal Cert.KernelIdeal.Gen Cert.KernelIdeal.Layers
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: a row-tiled window sits at block `t`, a whole operand at block 0. -/
theorem idx_facts : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- What point `t` writes back is block `t` of the layer function of the arrays as the region finds them. -/
theorem flushed_eq (c : Dev nD) (t : Fin cfg5.N) :
    (dat5 V c).flushed 3 t = ((cfg5.win 3).blk t).view.read (Elt Ideal) (affine64 (V c main_v81) (V c main_arg8) (V c main_v83)) := by
  show (cfg5.win 3).cut (grid5.coords t) ((dat5 V c).after 3 t) = _
  rw [after5_3]
  unfold out5_3
  rw [View.canon_unit_zero hz]
  simp only [View.ld_unit_zero (S := S2000x64) hz, View.ld_unit_zero (S := S64x64) hz, View.ld_unit_zero (S := S1x64) hz]
  obtain ⟨e00, e01, e10, e11, e20, e21, eo0, eo1⟩ := idx_facts t
  funext j
  obtain ⟨p, q, rfl⟩ : ∃ (p : Fin 2000) (q : Fin 64), j = ix2 p q := ⟨j 0, j 1, eq_ix2 j⟩
  show k5_pay1 (F := Ideal) (iblk5 V c 0 t) (iblk5 V c 1 t) (iblk5 V c 2 t) (ix2 p q)
    = affine64 (V c main_v81) (V c main_arg8) (V c main_v83) (((cfg5.win 3).blk t).view.emb (ix2 p q))
  refine (block5 (V c main_v81) (V c main_arg8) (V c main_v83) (iblk5 V c 0 t) (iblk5 V c 1 t) (iblk5 V c 2 t)
    ((((cfg5.win 3).blk t).view.emb (ix2 p q)) 0) p q ?_ ?_ ?_).trans ?_
  · intro k
    show V c main_v81 (((cfg5.win 0).blk t).view.emb (ix2 p k)) = V c main_v81 _
    refine congrArg (V c main_v81) (funext fun a => Fin.ext ?_)
    match a with
    | ⟨0, _⟩ => show win5_0.index t (0 : Fin 2) * 2000 + 1 * p.val = win5_3.index t (0 : Fin 2) * 2000 + 1 * p.val; omega
    | ⟨1, _⟩ => show win5_0.index t (1 : Fin 2) * 64 + 1 * k.val = k.val; omega
  · funext y
    show V c main_arg8 (((cfg5.win 1).blk t).view.emb y) = V c main_arg8 y
    refine congrArg (V c main_arg8) (funext fun a => Fin.ext ?_)
    match a with
    | ⟨0, _⟩ => show win5_1.index t (0 : Fin 2) * 64 + 1 * (y 0).val = (y 0).val; omega
    | ⟨1, _⟩ => show win5_1.index t (1 : Fin 2) * 64 + 1 * (y 1).val = (y 1).val; omega
  · funext y
    show V c main_v83 (((cfg5.win 2).blk t).view.emb y) = V c main_v83 y
    refine congrArg (V c main_v83) (funext fun a => Fin.ext ?_)
    match a with
    | ⟨0, _⟩ => show win5_2.index t (0 : Fin 2) * 1 + 1 * (y 0).val = (y 0).val; omega
    | ⟨1, _⟩ => show win5_2.index t (1 : Fin 2) * 64 + 1 * (y 1).val = (y 1).val; omega
  · refine congrArg (affine64 (V c main_v81) (V c main_arg8) (V c main_v83)) (funext fun a => Fin.ext ?_)
    match a with
    | ⟨0, _⟩ => rfl
    | ⟨1, _⟩ => show q.val = win5_3.index t (1 : Fin 2) * 64 + 1 * q.val; omega

/-- An index of the result array is in point `t`'s block iff each coordinate is in the block's range on its axis. -/
theorem mem_blk (t : Fin cfg5.N) (i : S100000x64.Idx) :
    i ∈ ((cfg5.win 3).blk t).view.set ↔ ∀ a : Fin 2, win5_3.index t a * S2000x64.size a ≤ (i a).val ∧ (i a).val < win5_3.index t a * S2000x64.size a + S2000x64.size a := by
  show i ∈ ((View.whole main_v84).slice (win5_3.rect t)).set ↔ _
  rw [View.set_slice_whole, Rect.mem_set_unit]
  exact Iff.rfl

/-- Row `r` lies in the block of point `r / 2000`: the blocks cover the array. -/
theorem cover (i : S100000x64.Idx) : ∃ t : Fin cfg5.N, (cfg5.win 3).flush t = true ∧ i ∈ ((cfg5.win 3).blk t).view.set := by
  have hi0 : (i 0).val < 100000 := (i 0).isLt
  have hi1 : (i 1).val < 64 := (i 1).isLt
  have ht : (i 0).val / 2000 < grid5.N := by rw [N_5]; omega
  refine ⟨⟨(i 0).val / 2000, ht⟩, flush5_3 _, ?_⟩
  rw [mem_blk]
  obtain ⟨-, -, -, -, -, -, eo0, eo1⟩ := idx_facts ⟨(i 0).val / 2000, ht⟩
  have eo0' : win5_3.index ⟨(i 0).val / 2000, ht⟩ (0 : Fin 2) = (i 0).val / 2000 := eo0
  intro a
  match a with
  | ⟨0, _⟩ => show win5_3.index _ (0 : Fin 2) * 2000 ≤ (i 0).val ∧ (i 0).val < win5_3.index _ (0 : Fin 2) * 2000 + 2000; rw [eo0']; omega
  | ⟨1, _⟩ => show win5_3.index _ (1 : Fin 2) * 64 ≤ (i 1).val ∧ (i 1).val < win5_3.index _ (1 : Fin 2) * 64 + 64; rw [eo1]; omega

/-- The result array after the region is the layer function of the arrays as the region finds them. -/
theorem final (c : Dev nD) :
    (dat5 V c).arrAt 3 cfg5.N = affine64 (V c main_v81) (V c main_arg8) (V c main_v83) :=
  (dat5 V c).arrAt_eq_of_cover 3 (affine64 (V c main_v81) (V c main_arg8) (V c main_v83)) (fun t _ => flushed_eq V c t) cover

end Cert.KernelIdeal.Region5

end
-- ==== Proof.Region2.lean ====
/-
  Region 2: the first self-loop, bias and clamp, tiled over 50 blocks of 2000 rows. Grid point `t` reads rows `2000·t … 2000·t + 1999` of
  each row-tiled operand (and the small operands whole) and writes the same rows of the result, so the result array
  after the region is ONE function, `Layers.selfLoopRelu`, of the arrays as the region finds them. Row `r` lies in the
  block of point `r / 2000`, so the blocks cover the array.
-/
import proofs.«135448_j90589450207317_1_alg».proof.Proof.Gen.KernelIdeal.Frame
import proofs.«135448_j90589450207317_1_alg».proof.Proof.Layers
import Idealize.ShloMosaic.Lib.Pipeline.Value

noncomputable section

namespace Cert.KernelIdeal.Region2

open Cert.KernelIdeal Cert.KernelIdeal.Gen Cert.KernelIdeal.Layers
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: a row-tiled window sits at block `t`, a whole operand at block 0. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- What point `t` writes back is block `t` of the layer function of the arrays as the region finds them. -/
theorem flushed_eq (c : Dev nD) (t : Fin cfg2.N) :
    (dat2 V c).flushed 4 t = ((cfg2.win 4).blk t).view.read (Elt Ideal) (selfLoopRelu (V c main_v44) (V c main_v16) (V c main_v46) (V c main_v45)) := by
  show (cfg2.win 4).cut (grid2.coords t) ((dat2 V c).after 4 t) = _
  rw [after2_4]
  unfold out2_4
  rw [View.canon_unit_zero hz]
  simp only [View.ld_unit_zero (S := S2000x64) hz, View.ld_unit_zero (S := S2000x1) hz, View.ld_unit_zero (S := S1x64) hz]
  obtain ⟨e00, e01, e10, e11, e20, e21, e30, e31, eo0, eo1⟩ := idx_facts t
  funext j
  obtain ⟨p, q, rfl⟩ : ∃ (p : Fin 2000) (q : Fin 64), j = ix2 p q := ⟨j 0, j 1, eq_ix2 j⟩
  show k2_pay1 (F := Ideal) (iblk2 V c 0 t) (iblk2 V c 1 t) (iblk2 V c 2 t) (iblk2 V c 3 t) (ix2 p q)
    = selfLoopRelu (V c main_v44) (V c main_v16) (V c main_v46) (V c main_v45) (((cfg2.win 4).blk t).view.emb (ix2 p q))
  refine (block2 (V c main_v44) (V c main_v16) (V c main_v46) (V c main_v45) (iblk2 V c 0 t) (iblk2 V c 1 t) (iblk2 V c 2 t) (iblk2 V c 3 t)
    ((((cfg2.win 4).blk t).view.emb (ix2 p q)) 0) p q ?_ ?_ ?_ ?_).trans ?_
  · show V c main_v44 (((cfg2.win 0).blk t).view.emb (ix2 p q)) = V c main_v44 _
    refine congrArg (V c main_v44) (funext fun a => Fin.ext ?_)
    match a with
    | ⟨0, _⟩ => show win2_0.index t (0 : Fin 2) * 2000 + 1 * p.val = win2_4.index t (0 : Fin 2) * 2000 + 1 * p.val; omega
    | ⟨1, _⟩ => show win2_0.index t (1 : Fin 2) * 64 + 1 * q.val = q.val; omega
  · show V c main_v16 (((cfg2.win 1).blk t).view.emb (ix2 p q)) = V c main_v16 _
    refine congrArg (V c main_v16) (funext fun a => Fin.ext ?_)
    match a with
    | ⟨0, _⟩ => show win2_1.index t (0 : Fin 2) * 2000 + 1 * p.val = win2_4.index t (0 : Fin 2) * 2000 + 1 * p.val; omega
    | ⟨1, _⟩ => show win2_1.index t (1 : Fin 2) * 64 + 1 * q.val = q.val; omega
  · show V c main_v46 (((cfg2.win 2).blk t).view.emb (ix2 p (0 : Fin 1))) = V c main_v46 _
    refine congrArg (V c main_v46) (funext fun a => Fin.ext ?_)
    match a with
    | ⟨0, _⟩ => show win2_2.index t (0 : Fin 2) * 2000 + 1 * p.val = win2_4.index t (0 : Fin 2) * 2000 + 1 * p.val; omega
    | ⟨1, _⟩ => show win2_2.index t (1 : Fin 2) * 1 + 1 * 0 = 0; omega
  · funext y
    show V c main_v45 (((cfg2.win 3).blk t).view.emb y) = V c main_v45 y
    refine congrArg (V c main_v45) (funext fun a => Fin.ext ?_)
    match a with
    | ⟨0, _⟩ => show win2_3.index t (0 : Fin 2) * 1 + 1 * (y 0).val = (y 0).val; omega
    | ⟨1, _⟩ => show win2_3.index t (1 : Fin 2) * 64 + 1 * (y 1).val = (y 1).val; omega
  · refine congrArg (selfLoopRelu (V c main_v44) (V c main_v16) (V c main_v46) (V c main_v45)) (funext fun a => Fin.ext ?_)
    match a with
    | ⟨0, _⟩ => rfl
    | ⟨1, _⟩ => show q.val = win2_4.index t (1 : Fin 2) * 64 + 1 * q.val; omega

/-- An index of the result array is in point `t`'s block iff each coordinate is in the block's range on its axis. -/
theorem mem_blk (t : Fin cfg2.N) (i : S100000x64.Idx) :
    i ∈ ((cfg2.win 4).blk t).view.set ↔ ∀ a : Fin 2, win2_4.index t a * S2000x64.size a ≤ (i a).val ∧ (i a).val < win2_4.index t a * S2000x64.size a + S2000x64.size a := by
  show i ∈ ((View.whole main_v47).slice (win2_4.rect t)).set ↔ _
  rw [View.set_slice_whole, Rect.mem_set_unit]
  exact Iff.rfl

/-- Row `r` lies in the block of point `r / 2000`: the blocks cover the array. -/
theorem cover (i : S100000x64.Idx) : ∃ t : Fin cfg2.N, (cfg2.win 4).flush t = true ∧ i ∈ ((cfg2.win 4).blk t).view.set := by
  have hi0 : (i 0).val < 100000 := (i 0).isLt
  have hi1 : (i 1).val < 64 := (i 1).isLt
  have ht : (i 0).val / 2000 < grid2.N := by rw [N_2]; omega
  refine ⟨⟨(i 0).val / 2000, ht⟩, flush2_4 _, ?_⟩
  rw [mem_blk]
  obtain ⟨-, -, -, -, -, -, -, -, eo0, eo1⟩ := idx_facts ⟨(i 0).val / 2000, ht⟩
  have eo0' : win2_4.index ⟨(i 0).val / 2000, ht⟩ (0 : Fin 2) = (i 0).val / 2000 := eo0
  intro a
  match a with
  | ⟨0, _⟩ => show win2_4.index _ (0 : Fin 2) * 2000 ≤ (i 0).val ∧ (i 0).val < win2_4.index _ (0 : Fin 2) * 2000 + 2000; rw [eo0']; omega
  | ⟨1, _⟩ => show win2_4.index _ (1 : Fin 2) * 64 ≤ (i 1).val ∧ (i 1).val < win2_4.index _ (1 : Fin 2) * 64 + 64; rw [eo1]; omega

/-- The result array after the region is the layer function of the arrays as the region finds them. -/
theorem final (c : Dev nD) :
    (dat2 V c).arrAt 4 cfg2.N = selfLoopRelu (V c main_v44) (V c main_v16) (V c main_v46) (V c main_v45) :=
  (dat2 V c).arrAt_eq_of_cover 4 (selfLoopRelu (V c main_v44) (V c main_v16) (V c main_v46) (V c main_v45)) (fun t _ => flushed_eq V c t) cover

end Cert.KernelIdeal.Region2

end
-- ==== Proof.Region3.lean ====
/-
  Region 3: the second hidden linear layer, tiled over 50 blocks of 2000 rows. Grid point `t` reads rows `2000·t … 2000·t + 1999` of
  each row-tiled operand (and the small operands whole) and writes the same rows of the result, so the result array
  after the region is ONE function, `Layers.affine64`, of the arrays as the region finds them. Row `r` lies in the
  block of point `r / 2000`, so the blocks cover the array.
-/
import proofs.«135448_j90589450207317_1_alg».proof.Proof.Gen.KernelIdeal.Frame
import proofs.«135448_j90589450207317_1_alg».proof.Proof.Layers
import Idealize.ShloMosaic.Lib.Pipeline.Value

noncomputable section

namespace Cert.KernelIdeal.Region3

open Cert.KernelIdeal Cert.KernelIdeal.Gen Cert.KernelIdeal.Layers
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: a row-tiled window sits at block `t`, a whole operand at block 0. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- What point `t` writes back is block `t` of the layer function of the arrays as the region finds them. -/
theorem flushed_eq (c : Dev nD) (t : Fin cfg3.N) :
    (dat3 V c).flushed 3 t = ((cfg3.win 3).blk t).view.read (Elt Ideal) (affine64 (V c main_v47) (V c main_arg6) (V c main_v49)) := by
  show (cfg3.win 3).cut (grid3.coords t) ((dat3 V c).after 3 t) = _
  rw [after3_3]
  unfold out3_3
  rw [View.canon_unit_zero hz]
  simp only [View.ld_unit_zero (S := S2000x64) hz, View.ld_unit_zero (S := S64x64) hz, View.ld_unit_zero (S := S1x64) hz]
  obtain ⟨e00, e01, e10, e11, e20, e21, eo0, eo1⟩ := idx_facts t
  funext j
  obtain ⟨p, q, rfl⟩ : ∃ (p : Fin 2000) (q : Fin 64), j = ix2 p q := ⟨j 0, j 1, eq_ix2 j⟩
  show k3_pay1 (F := Ideal) (iblk3 V c 0 t) (iblk3 V c 1 t) (iblk3 V c 2 t) (ix2 p q)
    = affine64 (V c main_v47) (V c main_arg6) (V c main_v49) (((cfg3.win 3).blk t).view.emb (ix2 p q))
  refine (block3 (V c main_v47) (V c main_arg6) (V c main_v49) (iblk3 V c 0 t) (iblk3 V c 1 t) (iblk3 V c 2 t)
    ((((cfg3.win 3).blk t).view.emb (ix2 p q)) 0) p q ?_ ?_ ?_).trans ?_
  · intro k
    show V c main_v47 (((cfg3.win 0).blk t).view.emb (ix2 p k)) = V c main_v47 _
    refine congrArg (V c main_v47) (funext fun a => Fin.ext ?_)
    match a with
    | ⟨0, _⟩ => show win3_0.index t (0 : Fin 2) * 2000 + 1 * p.val = win3_3.index t (0 : Fin 2) * 2000 + 1 * p.val; omega
    | ⟨1, _⟩ => show win3_0.index t (1 : Fin 2) * 64 + 1 * k.val = k.val; omega
  · funext y
    show V c main_arg6 (((cfg3.win 1).blk t).view.emb y) = V c main_arg6 y
    refine congrArg (V c main_arg6) (funext fun a => Fin.ext ?_)
    match a with
    | ⟨0, _⟩ => show win3_1.index t (0 : Fin 2) * 64 + 1 * (y 0).val = (y 0).val; omega
    | ⟨1, _⟩ => show win3_1.index t (1 : Fin 2) * 64 + 1 * (y 1).val = (y 1).val; omega
  · funext y
    show V c main_v49 (((cfg3.win 2).blk t).view.emb y) = V c main_v49 y
    refine congrArg (V c main_v49) (funext fun a => Fin.ext ?_)
    match a with
    | ⟨0, _⟩ => show win3_2.index t (0 : Fin 2) * 1 + 1 * (y 0).val = (y 0).val; omega
    | ⟨1, _⟩ => show win3_2.index t (1 : Fin 2) * 64 + 1 * (y 1).val = (y 1).val; omega
  · refine congrArg (affine64 (V c main_v47) (V c main_arg6) (V c main_v49)) (funext fun a => Fin.ext ?_)
    match a with
    | ⟨0, _⟩ => rfl
    | ⟨1, _⟩ => show q.val = win3_3.index t (1 : Fin 2) * 64 + 1 * q.val; omega

/-- An index of the result array is in point `t`'s block iff each coordinate is in the block's range on its axis. -/
theorem mem_blk (t : Fin cfg3.N) (i : S100000x64.Idx) :
    i ∈ ((cfg3.win 3).blk t).view.set ↔ ∀ a : Fin 2, win3_3.index t a * S2000x64.size a ≤ (i a).val ∧ (i a).val < win3_3.index t a * S2000x64.size a + S2000x64.size a := by
  show i ∈ ((View.whole main_v50).slice (win3_3.rect t)).set ↔ _
  rw [View.set_slice_whole, Rect.mem_set_unit]
  exact Iff.rfl

/-- Row `r` lies in the block of point `r / 2000`: the blocks cover the array. -/
theorem cover (i : S100000x64.Idx) : ∃ t : Fin cfg3.N, (cfg3.win 3).flush t = true ∧ i ∈ ((cfg3.win 3).blk t).view.set := by
  have hi0 : (i 0).val < 100000 := (i 0).isLt
  have hi1 : (i 1).val < 64 := (i 1).isLt
  have ht : (i 0).val / 2000 < grid3.N := by rw [N_3]; omega
  refine ⟨⟨(i 0).val / 2000, ht⟩, flush3_3 _, ?_⟩
  rw [mem_blk]
  obtain ⟨-, -, -, -, -, -, eo0, eo1⟩ := idx_facts ⟨(i 0).val / 2000, ht⟩
  have eo0' : win3_3.index ⟨(i 0).val / 2000, ht⟩ (0 : Fin 2) = (i 0).val / 2000 := eo0
  intro a
  match a with
  | ⟨0, _⟩ => show win3_3.index _ (0 : Fin 2) * 2000 ≤ (i 0).val ∧ (i 0).val < win3_3.index _ (0 : Fin 2) * 2000 + 2000; rw [eo0']; omega
  | ⟨1, _⟩ => show win3_3.index _ (1 : Fin 2) * 64 ≤ (i 1).val ∧ (i 1).val < win3_3.index _ (1 : Fin 2) * 64 + 64; rw [eo1]; omega

/-- The result array after the region is the layer function of the arrays as the region finds them. -/
theorem final (c : Dev nD) :
    (dat3 V c).arrAt 3 cfg3.N = affine64 (V c main_v47) (V c main_arg6) (V c main_v49) :=
  (dat3 V c).arrAt_eq_of_cover 3 (affine64 (V c main_v47) (V c main_arg6) (V c main_v49)) (fun t _ => flushed_eq V c t) cover

end Cert.KernelIdeal.Region3

end
-- ==== Proof.Region0.lean ====
/-
  Region 0: the first linear layer (128 input features), tiled over 50 blocks of 2000 rows. Grid point `t` reads rows `2000·t … 2000·t + 1999` of
  each row-tiled operand (and the small operands whole) and writes the same rows of the result, so the result array
  after the region is ONE function, `Layers.affine128`, of the arrays as the region finds them. Row `r` lies in the
  block of point `r / 2000`, so the blocks cover the array.
-/
import proofs.«135448_j90589450207317_1_alg».proof.Proof.Gen.KernelIdeal.Frame
import proofs.«135448_j90589450207317_1_alg».proof.Proof.Layers
import Idealize.ShloMosaic.Lib.Pipeline.Value

noncomputable section

namespace Cert.KernelIdeal.Region0

open Cert.KernelIdeal Cert.KernelIdeal.Gen Cert.KernelIdeal.Layers
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: a row-tiled window sits at block `t`, a whole operand at block 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point `t` writes back is block `t` of the layer function of the arrays as the region finds them. -/
theorem flushed_eq (c : Dev nD) (t : Fin cfg0.N) :
    (dat0 V c).flushed 3 t = ((cfg0.win 3).blk t).view.read (Elt Ideal) (affine128 (V c main_arg0) (V c main_arg2) (V c main_v12)) := by
  show (cfg0.win 3).cut (grid0.coords t) ((dat0 V c).after 3 t) = _
  rw [after0_3]
  unfold out0_3
  rw [View.canon_unit_zero hz]
  simp only [View.ld_unit_zero (S := S2000x128) hz, View.ld_unit_zero (S := S128x64) hz, View.ld_unit_zero (S := S1x64) hz]
  obtain ⟨e00, e01, e10, e11, e20, e21, eo0, eo1⟩ := idx_facts t
  funext j
  obtain ⟨p, q, rfl⟩ : ∃ (p : Fin 2000) (q : Fin 64), j = ix2 p q := ⟨j 0, j 1, eq_ix2 j⟩
  show k0_pay1 (F := Ideal) (iblk0 V c 0 t) (iblk0 V c 1 t) (iblk0 V c 2 t) (ix2 p q)
    = affine128 (V c main_arg0) (V c main_arg2) (V c main_v12) (((cfg0.win 3).blk t).view.emb (ix2 p q))
  refine (block0 (V c main_arg0) (V c main_arg2) (V c main_v12) (iblk0 V c 0 t) (iblk0 V c 1 t) (iblk0 V c 2 t)
    ((((cfg0.win 3).blk t).view.emb (ix2 p q)) 0) p q ?_ ?_ ?_).trans ?_
  · intro k
    show V c main_arg0 (((cfg0.win 0).blk t).view.emb (ix2 p k)) = V c main_arg0 _
    refine congrArg (V c main_arg0) (funext fun a => Fin.ext ?_)
    match a with
    | ⟨0, _⟩ => show win0_0.index t (0 : Fin 2) * 2000 + 1 * p.val = win0_3.index t (0 : Fin 2) * 2000 + 1 * p.val; omega
    | ⟨1, _⟩ => show win0_0.index t (1 : Fin 2) * 128 + 1 * k.val = k.val; omega
  · funext y
    show V c main_arg2 (((cfg0.win 1).blk t).view.emb y) = V c main_arg2 y
    refine congrArg (V c main_arg2) (funext fun a => Fin.ext ?_)
    match a with
    | ⟨0, _⟩ => show win0_1.index t (0 : Fin 2) * 128 + 1 * (y 0).val = (y 0).val; omega
    | ⟨1, _⟩ => show win0_1.index t (1 : Fin 2) * 64 + 1 * (y 1).val = (y 1).val; omega
  · funext y
    show V c main_v12 (((cfg0.win 2).blk t).view.emb y) = V c main_v12 y
    refine congrArg (V c main_v12) (funext fun a => Fin.ext ?_)
    match a with
    | ⟨0, _⟩ => show win0_2.index t (0 : Fin 2) * 1 + 1 * (y 0).val = (y 0).val; omega
    | ⟨1, _⟩ => show win0_2.index t (1 : Fin 2) * 64 + 1 * (y 1).val = (y 1).val; omega
  · refine congrArg (affine128 (V c main_arg0) (V c main_arg2) (V c main_v12)) (funext fun a => Fin.ext ?_)
    match a with
    | ⟨0, _⟩ => rfl
    | ⟨1, _⟩ => show q.val = win0_3.index t (1 : Fin 2) * 64 + 1 * q.val; omega

/-- An index of the result array is in point `t`'s block iff each coordinate is in the block's range on its axis. -/
theorem mem_blk (t : Fin cfg0.N) (i : S100000x64.Idx) :
    i ∈ ((cfg0.win 3).blk t).view.set ↔ ∀ a : Fin 2, win0_3.index t a * S2000x64.size a ≤ (i a).val ∧ (i a).val < win0_3.index t a * S2000x64.size a + S2000x64.size a := by
  show i ∈ ((View.whole main_v13).slice (win0_3.rect t)).set ↔ _
  rw [View.set_slice_whole, Rect.mem_set_unit]
  exact Iff.rfl

/-- Row `r` lies in the block of point `r / 2000`: the blocks cover the array. -/
theorem cover (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  have ht : (i 0).val / 2000 < grid0.N := by rw [N_0]; omega
  refine ⟨⟨(i 0).val / 2000, ht⟩, flush0_3 _, ?_⟩
  rw [mem_blk]
  obtain ⟨-, -, -, -, -, -, eo0, eo1⟩ := idx_facts ⟨(i 0).val / 2000, ht⟩
  have eo0' : win0_3.index ⟨(i 0).val / 2000, ht⟩ (0 : Fin 2) = (i 0).val / 2000 := eo0
  intro a
  match a with
  | ⟨0, _⟩ => show win0_3.index _ (0 : Fin 2) * 2000 ≤ (i 0).val ∧ (i 0).val < win0_3.index _ (0 : Fin 2) * 2000 + 2000; rw [eo0']; omega
  | ⟨1, _⟩ => show win0_3.index _ (1 : Fin 2) * 64 ≤ (i 1).val ∧ (i 1).val < win0_3.index _ (1 : Fin 2) * 64 + 64; rw [eo1]; omega

/-- The result array after the region is the layer function of the arrays as the region finds them. -/
theorem final (c : Dev nD) :
    (dat0 V c).arrAt 3 cfg0.N = affine128 (V c main_arg0) (V c main_arg2) (V c main_v12) :=
  (dat0 V c).arrAt_eq_of_cover 3 (affine128 (V c main_arg0) (V c main_arg2) (V c main_v12)) (fun t _ => flushed_eq V c t) cover

end Cert.KernelIdeal.Region0

end
-- ==== Proof.Region1.lean ====
/-
  Region 1: the first hidden linear layer, tiled over 50 blocks of 2000 rows. Grid point `t` reads rows `2000·t … 2000·t + 1999` of
  each row-tiled operand (and the small operands whole) and writes the same rows of the result, so the result array
  after the region is ONE function, `Layers.affine64`, of the arrays as the region finds them. Row `r` lies in the
  block of point `r / 2000`, so the blocks cover the array.
-/
import proofs.«135448_j90589450207317_1_alg».proof.Proof.Gen.KernelIdeal.Frame
import proofs.«135448_j90589450207317_1_alg».proof.Proof.Layers
import Idealize.ShloMosaic.Lib.Pipeline.Value

noncomputable section

namespace Cert.KernelIdeal.Region1

open Cert.KernelIdeal Cert.KernelIdeal.Gen Cert.KernelIdeal.Layers
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: a row-tiled window sits at block `t`, a whole operand at block 0. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is block `t` of the layer function of the arrays as the region finds them. -/
theorem flushed_eq (c : Dev nD) (t : Fin cfg1.N) :
    (dat1 V c).flushed 3 t = ((cfg1.win 3).blk t).view.read (Elt Ideal) (affine64 (V c main_v13) (V c main_arg4) (V c main_v15)) := by
  show (cfg1.win 3).cut (grid1.coords t) ((dat1 V c).after 3 t) = _
  rw [after1_3]
  unfold out1_3
  rw [View.canon_unit_zero hz]
  simp only [View.ld_unit_zero (S := S2000x64) hz, View.ld_unit_zero (S := S64x64) hz, View.ld_unit_zero (S := S1x64) hz]
  obtain ⟨e00, e01, e10, e11, e20, e21, eo0, eo1⟩ := idx_facts t
  funext j
  obtain ⟨p, q, rfl⟩ : ∃ (p : Fin 2000) (q : Fin 64), j = ix2 p q := ⟨j 0, j 1, eq_ix2 j⟩
  show k1_pay1 (F := Ideal) (iblk1 V c 0 t) (iblk1 V c 1 t) (iblk1 V c 2 t) (ix2 p q)
    = affine64 (V c main_v13) (V c main_arg4) (V c main_v15) (((cfg1.win 3).blk t).view.emb (ix2 p q))
  refine (block1 (V c main_v13) (V c main_arg4) (V c main_v15) (iblk1 V c 0 t) (iblk1 V c 1 t) (iblk1 V c 2 t)
    ((((cfg1.win 3).blk t).view.emb (ix2 p q)) 0) p q ?_ ?_ ?_).trans ?_
  · intro k
    show V c main_v13 (((cfg1.win 0).blk t).view.emb (ix2 p k)) = V c main_v13 _
    refine congrArg (V c main_v13) (funext fun a => Fin.ext ?_)
    match a with
    | ⟨0, _⟩ => show win1_0.index t (0 : Fin 2) * 2000 + 1 * p.val = win1_3.index t (0 : Fin 2) * 2000 + 1 * p.val; omega
    | ⟨1, _⟩ => show win1_0.index t (1 : Fin 2) * 64 + 1 * k.val = k.val; omega
  · funext y
    show V c main_arg4 (((cfg1.win 1).blk t).view.emb y) = V c main_arg4 y
    refine congrArg (V c main_arg4) (funext fun a => Fin.ext ?_)
    match a with
    | ⟨0, _⟩ => show win1_1.index t (0 : Fin 2) * 64 + 1 * (y 0).val = (y 0).val; omega
    | ⟨1, _⟩ => show win1_1.index t (1 : Fin 2) * 64 + 1 * (y 1).val = (y 1).val; omega
  · funext y
    show V c main_v15 (((cfg1.win 2).blk t).view.emb y) = V c main_v15 y
    refine congrArg (V c main_v15) (funext fun a => Fin.ext ?_)
    match a with
    | ⟨0, _⟩ => show win1_2.index t (0 : Fin 2) * 1 + 1 * (y 0).val = (y 0).val; omega
    | ⟨1, _⟩ => show win1_2.index t (1 : Fin 2) * 64 + 1 * (y 1).val = (y 1).val; omega
  · refine congrArg (affine64 (V c main_v13) (V c main_arg4) (V c main_v15)) (funext fun a => Fin.ext ?_)
    match a with
    | ⟨0, _⟩ => rfl
    | ⟨1, _⟩ => show q.val = win1_3.index t (1 : Fin 2) * 64 + 1 * q.val; omega

/-- An index of the result array is in point `t`'s block iff each coordinate is in the block's range on its axis. -/
theorem mem_blk (t : Fin cfg1.N) (i : S100000x64.Idx) :
    i ∈ ((cfg1.win 3).blk t).view.set ↔ ∀ a : Fin 2, win1_3.index t a * S2000x64.size a ≤ (i a).val ∧ (i a).val < win1_3.index t a * S2000x64.size a + S2000x64.size a := by
  show i ∈ ((View.whole main_v16).slice (win1_3.rect t)).set ↔ _
  rw [View.set_slice_whole, Rect.mem_set_unit]
  exact Iff.rfl

/-- Row `r` lies in the block of point `r / 2000`: the blocks cover the array. -/
theorem cover (i : S100000x64.Idx) : ∃ t : Fin cfg1.N, (cfg1.win 3).flush t = true ∧ i ∈ ((cfg1.win 3).blk t).view.set := by
  have hi0 : (i 0).val < 100000 := (i 0).isLt
  have hi1 : (i 1).val < 64 := (i 1).isLt
  have ht : (i 0).val / 2000 < grid1.N := by rw [N_1]; omega
  refine ⟨⟨(i 0).val / 2000, ht⟩, flush1_3 _, ?_⟩
  rw [mem_blk]
  obtain ⟨-, -, -, -, -, -, eo0, eo1⟩ := idx_facts ⟨(i 0).val / 2000, ht⟩
  have eo0' : win1_3.index ⟨(i 0).val / 2000, ht⟩ (0 : Fin 2) = (i 0).val / 2000 := eo0
  intro a
  match a with
  | ⟨0, _⟩ => show win1_3.index _ (0 : Fin 2) * 2000 ≤ (i 0).val ∧ (i 0).val < win1_3.index _ (0 : Fin 2) * 2000 + 2000; rw [eo0']; omega
  | ⟨1, _⟩ => show win1_3.index _ (1 : Fin 2) * 64 ≤ (i 1).val ∧ (i 1).val < win1_3.index _ (1 : Fin 2) * 64 + 64; rw [eo1]; omega

/-- The result array after the region is the layer function of the arrays as the region finds them. -/
theorem final (c : Dev nD) :
    (dat1 V c).arrAt 3 cfg1.N = affine64 (V c main_v13) (V c main_arg4) (V c main_v15) :=
  (dat1 V c).arrAt_eq_of_cover 3 (affine64 (V c main_v13) (V c main_arg4) (V c main_v15)) (fun t _ => flushed_eq V c t) cover

end Cert.KernelIdeal.Region1

end
-- ==== Proof.ChainA.lean ====
/-
  The first two regions. With the launch memory's argument arrays written x0 … x9, every buffer of the kernel's
  program that a later segment reads is identified with a stage of the reference program, as a function of the
  arguments: the edge endpoints and the inverse root degree (computed by the same host operations in both programs),
  the first layer's output `x0·x2 + x3`, and the first hidden product (a linear region whose bias row is zero).
-/
import proofs.«135448_j90589450207317_1_alg».proof.Proof.Gen.KernelIdeal.Frame
import proofs.«135448_j90589450207317_1_alg».proof.Proof.Region0
import proofs.«135448_j90589450207317_1_alg».proof.Proof.Region1
import proofs.«135448_j90589450207317_1_alg».proof.Proof.Carry
import proofs.«135448_j90589450207317_1_alg».proof.Proof.RefLayers
import Idealize.ShloMosaic.Lib.StableHlo.Run
import Idealize.ShloMosaic.Lib.ValueLayout

set_option maxRecDepth 16384

noncomputable section

namespace Cert.KernelIdeal.Chain

open Cert.KernelIdeal Cert.KernelIdeal.Gen Cert.KernelIdeal.Layers
open Idealize.ShloMosaic Idealize.ShloMosaic.TcCoe Idealize.SL.Sem Idealize.ShloMosaic.ValueIdx Idealize.ShloMosaic.StableHlo

variable (m : (ℓ : Loc nD τ sig) → Buf (Elt Ideal) ℓ) (ρ : Dev nD → PrngReg)

/-- The argument arrays at launch. -/
abbrev x0 (c : Dev nD) := m ((c : Thread nD τ).loc main_arg0)
abbrev x1 (c : Dev nD) := m ((c : Thread nD τ).loc main_arg1)
abbrev x2 (c : Dev nD) := m ((c : Thread nD τ).loc main_arg2)
abbrev x3 (c : Dev nD) := m ((c : Thread nD τ).loc main_arg3)
abbrev x4 (c : Dev nD) := m ((c : Thread nD τ).loc main_arg4)
abbrev x5 (c : Dev nD) := m ((c : Thread nD τ).loc main_arg5)
abbrev x6 (c : Dev nD) := m ((c : Thread nD τ).loc main_arg6)
abbrev x7 (c : Dev nD) := m ((c : Thread nD τ).loc main_arg7)
abbrev x8 (c : Dev nD) := m ((c : Thread nD τ).loc main_arg8)
abbrev x9 (c : Dev nD) := m ((c : Thread nD τ).loc main_arg9)

/-! ### After the first stretch of host operations -/

theorem W1_arg0 (c : Dev nD) : W1 m ρ c (Proc.devRef .tc main_arg0) = x0 m c := Carry.keep0_main_arg0 (W0 m ρ c)
theorem W1_arg2 (c : Dev nD) : W1 m ρ c (Proc.devRef .tc main_arg2) = x2 m c := Carry.keep0_main_arg2 (W0 m ρ c)

/-- The source endpoints of the edges. -/
theorem W1_v1 (c : Dev nD) : W1 m ρ c (Proc.devRef .tc main_v1) = Cert.ReferenceIdeal.Read.val_main_v1 (F := Ideal) (x1 m c) := by
  show StableHlo.after hostOps0 (W0 m ρ c) (Proc.devRef .tc main_v1) = _
  after_results_simp <;> rfl
/-- The destination endpoints of the edges. -/
theorem W1_v3 (c : Dev nD) : W1 m ρ c (Proc.devRef .tc main_v3) = Cert.ReferenceIdeal.Read.val_main_v3 (F := Ideal) (x1 m c) := by
  show StableHlo.after hostOps0 (W0 m ρ c) (Proc.devRef .tc main_v3) = _
  after_results_simp <;> rfl
/-- The inverse root degrees. -/
theorem W1_v10 (c : Dev nD) : W1 m ρ c (Proc.devRef .tc main_v10) = Cert.ReferenceIdeal.Read.val_main_v10 (F := Ideal) (x1 m c) := by
  show StableHlo.after hostOps0 (W0 m ρ c) (Proc.devRef .tc main_v10) = _
  after_results_simp <;> rfl
/-- Their squares. -/
theorem W1_v11 (c : Dev nD) : W1 m ρ c (Proc.devRef .tc main_v11) = Cert.ReferenceIdeal.Read.val_main_v44 (F := Ideal) (x1 m c) := by
  show StableHlo.after hostOps0 (W0 m ρ c) (Proc.devRef .tc main_v11) = _
  after_results_simp <;> rfl
/-- The first bias as a one-row matrix. -/
theorem V1_v12_row (c : Dev nD) (q : Fin 64) :
    (V1 m ρ c main_v12 : FVec Ideal S1x64 .f32) (ix2 (0 : Fin 1) q) = (x3 m c : FVec Ideal S64 .f32) (ix1 q) := by
  have e : V1 m ρ c main_v12 = shapeCast S1x64 (x3 m c : FVec Ideal S64 .f32) shapeCasts_S64_S1x64 := by
    show StableHlo.after hostOps0 (W0 m ρ c) (Proc.devRef .tc main_v12) = _
    after_results_simp <;> rfl
  rw [e]
  exact shapeCast_a_1a_apply _ _ (0 : Fin 1) q

/-! ### Region 0: the first layer -/

theorem W2_v13 (c : Dev nD) : W2 m ρ c (Proc.devRef .tc main_v13) = Cert.ReferenceIdeal.Read.val_main_v14 (F := Ideal) (x0 m c) (x2 m c) (x3 m c) := by
  refine (W2_arr m ρ c 3).trans ?_
  rw [Region0.final (V1 m ρ) c,
    show V1 m ρ c main_arg0 = x0 m c from W1_arg0 m ρ c, show V1 m ρ c main_arg2 = x2 m c from W1_arg2 m ρ c]
  exact Cert.RefLayers.affine128_eq _ _ _ _ (V1_v12_row m ρ c)

/-! ### The second stretch and region 1: the first hidden product -/

theorem V3_v13 (c : Dev nD) : V3 m ρ c main_v13 = Cert.ReferenceIdeal.Read.val_main_v14 (F := Ideal) (x0 m c) (x2 m c) (x3 m c) :=
  (Carry.keep1_main_v13 (W2 m ρ c)).trans (W2_v13 m ρ c)
theorem V3_arg4 (c : Dev nD) : V3 m ρ c main_arg4 = x4 m c :=
  (((Carry.keep1_main_arg4 (W2 m ρ c)).trans (W2_of_ne m ρ c main_arg4 (by decide))).trans (Carry.keep0_main_arg4 (W0 m ρ c)))
/-- The zero bias row of a hidden linear region. -/
theorem V3_v15_row (c : Dev nD) (q : Fin 64) :
    (V3 m ρ c main_v15 : FVec Ideal S1x64 .f32) (ix2 (0 : Fin 1) q) = Ideal.ofBits .f32 0x00000000#32 := by
  have e : V3 m ρ c main_v15 = shapeCast S1x64 (broadcastInDim S64 (![] : Fin 0 → Fin 1) bcast_S_S64 (constant (F := Ideal) S_ .f32 0x00000000#32)) shapeCasts_S64_S1x64 := by
    show StableHlo.after hostOps1 (W2 m ρ c) (Proc.devRef .tc main_v15) = _
    after_results_simp <;> rfl
  rw [e]
  exact (shapeCast_a_1a_apply _ _ (0 : Fin 1) q).trans rfl

theorem W4_v16 (c : Dev nD) : W4 m ρ c (Proc.devRef .tc main_v16) = Cert.ReferenceIdeal.Read.val_main_v15 (F := Ideal) (x0 m c) (x2 m c) (x3 m c) (x4 m c) := by
  refine (W4_arr m ρ c 3).trans ?_
  rw [Region1.final (V3 m ρ) c, V3_v13 m ρ c, V3_arg4 m ρ c]
  exact Cert.RefLayers.affine64_zero_eq _ _ _ (V3_v15_row m ρ c)

end Cert.KernelIdeal.Chain

end
-- ==== Proof.ChainB.lean ====
/-
  Layer 1 of the graph convolution. The stretch of host operations gathers the linear region's output along the
  edges, scales each message by the product of the two endpoints' inverse root degrees and adds the messages into
  their destination rows — the same operations, on the same operands, as the reference's, so the aggregated array is
  the reference's stage as it stands. The combine region then adds the self-loop term and the bias and clamps at zero, and the next linear region (zero bias row) is the reference's next product.
-/
import proofs.«135448_j90589450207317_1_alg».proof.Proof.Gen.KernelIdeal.Frame
import proofs.«135448_j90589450207317_1_alg».proof.Proof.Region2
import proofs.«135448_j90589450207317_1_alg».proof.Proof.Region3
import proofs.«135448_j90589450207317_1_alg».proof.Proof.Carry
import proofs.«135448_j90589450207317_1_alg».proof.Proof.RefLayers
import proofs.«135448_j90589450207317_1_alg».proof.Proof.ChainA
import Idealize.ShloMosaic.Lib.StableHlo.Run
import Idealize.ShloMosaic.Lib.ValueLayout

set_option maxRecDepth 16384

noncomputable section

namespace Cert.KernelIdeal.Chain

open Cert.KernelIdeal Cert.KernelIdeal.Gen Cert.KernelIdeal.Layers
open Idealize.ShloMosaic Idealize.ShloMosaic.TcCoe Idealize.SL.Sem Idealize.ShloMosaic.ValueIdx Idealize.ShloMosaic.StableHlo

variable (m : (ℓ : Loc nD τ sig) → Buf (Elt Ideal) ℓ) (ρ : Dev nD → PrngReg)

/-! ### What the stretch reads, carried from where it was written -/

theorem W4_v1 (c : Dev nD) : W4 m ρ c (Proc.devRef .tc main_v1) = Cert.ReferenceIdeal.Read.val_main_v1 (F := Ideal) (x1 m c) :=
  (((W4_of_ne m ρ c main_v1 (by decide)).trans (Carry.keep1_main_v1 (W2 m ρ c))).trans (W2_of_ne m ρ c main_v1 (by decide))).trans (W1_v1 m ρ c)
theorem W4_v3 (c : Dev nD) : W4 m ρ c (Proc.devRef .tc main_v3) = Cert.ReferenceIdeal.Read.val_main_v3 (F := Ideal) (x1 m c) :=
  (((W4_of_ne m ρ c main_v3 (by decide)).trans (Carry.keep1_main_v3 (W2 m ρ c))).trans (W2_of_ne m ρ c main_v3 (by decide))).trans (W1_v3 m ρ c)
theorem W4_v10 (c : Dev nD) : W4 m ρ c (Proc.devRef .tc main_v10) = Cert.ReferenceIdeal.Read.val_main_v10 (F := Ideal) (x1 m c) :=
  (((W4_of_ne m ρ c main_v10 (by decide)).trans (Carry.keep1_main_v10 (W2 m ρ c))).trans (W2_of_ne m ρ c main_v10 (by decide))).trans (W1_v10 m ρ c)
theorem W4_v11 (c : Dev nD) : W4 m ρ c (Proc.devRef .tc main_v11) = Cert.ReferenceIdeal.Read.val_main_v44 (F := Ideal) (x1 m c) :=
  (((W4_of_ne m ρ c main_v11 (by decide)).trans (Carry.keep1_main_v11 (W2 m ρ c))).trans (W2_of_ne m ρ c main_v11 (by decide))).trans (W1_v11 m ρ c)
theorem W4_arg5 (c : Dev nD) : W4 m ρ c (Proc.devRef .tc main_arg5) = x5 m c :=
  ((((W4_of_ne m ρ c main_arg5 (by decide)).trans (Carry.keep1_main_arg5 (W2 m ρ c))).trans (W2_of_ne m ρ c main_arg5 (by decide))).trans (Carry.keep0_main_arg5 (W0 m ρ c)))

/-! ### The aggregation stretch -/

/-- The aggregated messages are the reference's. -/
theorem V5_agg (c : Dev nD) : V5 m ρ c main_v44 = Cert.ReferenceIdeal.Read.val_main_v43 (F := Ideal) (x0 m c) (x1 m c) (x2 m c) (x3 m c) (x4 m c) := by
  show StableHlo.after hostOps2 (W4 m ρ c) (Proc.devRef .tc main_v44) = _
  after_results_simp
  rw [W4_v16 m ρ c, W4_v1 m ρ c, W4_v3 m ρ c, W4_v10 m ρ c]
  rfl
theorem V5_hw (c : Dev nD) : V5 m ρ c main_v16 = Cert.ReferenceIdeal.Read.val_main_v15 (F := Ideal) (x0 m c) (x2 m c) (x3 m c) (x4 m c) :=
  (Carry.keep2_main_v16 (W4 m ρ c)).trans (W4_v16 m ρ c)
/-- The squared inverse root degrees as a column. -/
theorem V5_dcol (c : Dev nD) (r : Fin 100000) :
    (V5 m ρ c main_v46 : FVec Ideal S100000x1 .f32) (ix2 r (0 : Fin 1)) = (Cert.ReferenceIdeal.Read.val_main_v44 (F := Ideal) (x1 m c)) (ix1 r) := by
  have e : V5 m ρ c main_v46 = shapeCast S100000x1 (W4 m ρ c (Proc.devRef .tc main_v11) : FVec Ideal S100000 .f32) shapeCasts_S100000_S100000x1 := by
    show StableHlo.after hostOps2 (W4 m ρ c) (Proc.devRef .tc main_v46) = _
    after_results_simp <;> rfl
  rw [e, W4_v11 m ρ c]
  exact Bodies.shapeCast_vec_col_apply _ _ r (0 : Fin 1)
/-- The bias as a one-row matrix. -/
theorem V5_brow (c : Dev nD) (q : Fin 64) :
    (V5 m ρ c main_v45 : FVec Ideal S1x64 .f32) (ix2 (0 : Fin 1) q) = (x5 m c : FVec Ideal S64 .f32) (ix1 q) := by
  have e : V5 m ρ c main_v45 = shapeCast S1x64 (W4 m ρ c (Proc.devRef .tc main_arg5) : FVec Ideal S64 .f32) shapeCasts_S64_S1x64 := by
    show StableHlo.after hostOps2 (W4 m ρ c) (Proc.devRef .tc main_v45) = _
    after_results_simp <;> rfl
  rw [e, W4_arg5 m ρ c]
  exact shapeCast_a_1a_apply _ _ (0 : Fin 1) q

/-! ### The combine region -/

theorem W6_v47 (c : Dev nD) : W6 m ρ c (Proc.devRef .tc main_v47) = Cert.ReferenceIdeal.Read.val_main_v52 (F := Ideal) (x0 m c) (x1 m c) (x2 m c) (x3 m c) (x4 m c) (x5 m c) := by
  refine (W6_arr m ρ c 4).trans ?_
  rw [Region2.final (V5 m ρ) c, V5_agg m ρ c, V5_hw m ρ c]
  refine (Cert.RefLayers.selfLoopRelu_eq _ _ (Cert.ReferenceIdeal.Read.val_main_v44 (F := Ideal) (x1 m c)) (x5 m c) _ _ (V5_dcol m ρ c) (V5_brow m ρ c)).trans ?_
  rfl

/-! ### The next linear region -/

theorem V7_in (c : Dev nD) : V7 m ρ c main_v47 = Cert.ReferenceIdeal.Read.val_main_v52 (F := Ideal) (x0 m c) (x1 m c) (x2 m c) (x3 m c) (x4 m c) (x5 m c) :=
  (Carry.keep3_main_v47 (W6 m ρ c)).trans (W6_v47 m ρ c)
theorem V7_arg6 (c : Dev nD) : V7 m ρ c main_arg6 = x6 m c :=
  (((((((Carry.keep3_main_arg6 (W6 m ρ c)).trans (W6_of_ne m ρ c main_arg6 (by decide))).trans (Carry.keep2_main_arg6 (W4 m ρ c))).trans (W4_of_ne m ρ c main_arg6 (by decide))).trans (Carry.keep1_main_arg6 (W2 m ρ c))).trans (W2_of_ne m ρ c main_arg6 (by decide))).trans (Carry.keep0_main_arg6 (W0 m ρ c)))
/-- The zero bias row. -/
theorem V7_zrow (c : Dev nD) (q : Fin 64) :
    (V7 m ρ c main_v49 : FVec Ideal S1x64 .f32) (ix2 (0 : Fin 1) q) = Ideal.ofBits .f32 0x00000000#32 := by
  have e : V7 m ρ c main_v49 = shapeCast S1x64 (broadcastInDim S64 (![] : Fin 0 → Fin 1) bcast_S_S64 (constant (F := Ideal) S_ .f32 0x00000000#32)) shapeCasts_S64_S1x64 := by
    show StableHlo.after hostOps3 (W6 m ρ c) (Proc.devRef .tc main_v49) = _
    after_results_simp <;> rfl
  rw [e]
  exact (shapeCast_a_1a_apply _ _ (0 : Fin 1) q).trans rfl

theorem W8_v50 (c : Dev nD) : W8 m ρ c (Proc.devRef .tc main_v50) = Cert.ReferenceIdeal.Read.val_main_v53 (F := Ideal) (x0 m c) (x1 m c) (x2 m c) (x3 m c) (x4 m c) (x5 m c) (x6 m c) := by
  refine (W8_arr m ρ c 3).trans ?_
  rw [Region3.final (V7 m ρ) c, V7_in m ρ c, V7_arg6 m ρ c]
  exact Cert.RefLayers.affine64_zero_eq _ _ _ (V7_zrow m ρ c)

end Cert.KernelIdeal.Chain

end
-- ==== Proof.ChainC.lean ====
/-
  Layer 2 of the graph convolution. The stretch of host operations gathers the linear region's output along the
  edges, scales each message by the product of the two endpoints' inverse root degrees and adds the messages into
  their destination rows — the same operations, on the same operands, as the reference's, so the aggregated array is
  the reference's stage as it stands. The combine region then adds the self-loop term and the bias and clamps at zero, and the next linear region (zero bias row) is the reference's next product.
-/
import proofs.«135448_j90589450207317_1_alg».proof.Proof.Gen.KernelIdeal.Frame
import proofs.«135448_j90589450207317_1_alg».proof.Proof.Region4
import proofs.«135448_j90589450207317_1_alg».proof.Proof.Region5
import proofs.«135448_j90589450207317_1_alg».proof.Proof.Carry
import proofs.«135448_j90589450207317_1_alg».proof.Proof.RefLayers
import proofs.«135448_j90589450207317_1_alg».proof.Proof.ChainB
import Idealize.ShloMosaic.Lib.StableHlo.Run
import Idealize.ShloMosaic.Lib.ValueLayout

set_option maxRecDepth 16384

noncomputable section

namespace Cert.KernelIdeal.Chain

open Cert.KernelIdeal Cert.KernelIdeal.Gen Cert.KernelIdeal.Layers
open Idealize.ShloMosaic Idealize.ShloMosaic.TcCoe Idealize.SL.Sem Idealize.ShloMosaic.ValueIdx Idealize.ShloMosaic.StableHlo

variable (m : (ℓ : Loc nD τ sig) → Buf (Elt Ideal) ℓ) (ρ : Dev nD → PrngReg)

/-! ### What the stretch reads, carried from where it was written -/

theorem W8_v1 (c : Dev nD) : W8 m ρ c (Proc.devRef .tc main_v1) = Cert.ReferenceIdeal.Read.val_main_v1 (F := Ideal) (x1 m c) :=
  (((((((W8_of_ne m ρ c main_v1 (by decide)).trans (Carry.keep3_main_v1 (W6 m ρ c))).trans (W6_of_ne m ρ c main_v1 (by decide))).trans (Carry.keep2_main_v1 (W4 m ρ c))).trans (W4_of_ne m ρ c main_v1 (by decide))).trans (Carry.keep1_main_v1 (W2 m ρ c))).trans (W2_of_ne m ρ c main_v1 (by decide))).trans (W1_v1 m ρ c)
theorem W8_v3 (c : Dev nD) : W8 m ρ c (Proc.devRef .tc main_v3) = Cert.ReferenceIdeal.Read.val_main_v3 (F := Ideal) (x1 m c) :=
  (((((((W8_of_ne m ρ c main_v3 (by decide)).trans (Carry.keep3_main_v3 (W6 m ρ c))).trans (W6_of_ne m ρ c main_v3 (by decide))).trans (Carry.keep2_main_v3 (W4 m ρ c))).trans (W4_of_ne m ρ c main_v3 (by decide))).trans (Carry.keep1_main_v3 (W2 m ρ c))).trans (W2_of_ne m ρ c main_v3 (by decide))).trans (W1_v3 m ρ c)
theorem W8_v10 (c : Dev nD) : W8 m ρ c (Proc.devRef .tc main_v10) = Cert.ReferenceIdeal.Read.val_main_v10 (F := Ideal) (x1 m c) :=
  (((((((W8_of_ne m ρ c main_v10 (by decide)).trans (Carry.keep3_main_v10 (W6 m ρ c))).trans (W6_of_ne m ρ c main_v10 (by decide))).trans (Carry.keep2_main_v10 (W4 m ρ c))).trans (W4_of_ne m ρ c main_v10 (by decide))).trans (Carry.keep1_main_v10 (W2 m ρ c))).trans (W2_of_ne m ρ c main_v10 (by decide))).trans (W1_v10 m ρ c)
theorem W8_v11 (c : Dev nD) : W8 m ρ c (Proc.devRef .tc main_v11) = Cert.ReferenceIdeal.Read.val_main_v44 (F := Ideal) (x1 m c) :=
  (((((((W8_of_ne m ρ c main_v11 (by decide)).trans (Carry.keep3_main_v11 (W6 m ρ c))).trans (W6_of_ne m ρ c main_v11 (by decide))).trans (Carry.keep2_main_v11 (W4 m ρ c))).trans (W4_of_ne m ρ c main_v11 (by decide))).trans (Carry.keep1_main_v11 (W2 m ρ c))).trans (W2_of_ne m ρ c main_v11 (by decide))).trans (W1_v11 m ρ c)
theorem W8_arg7 (c : Dev nD) : W8 m ρ c (Proc.devRef .tc main_arg7) = x7 m c :=
  ((((((((W8_of_ne m ρ c main_arg7 (by decide)).trans (Carry.keep3_main_arg7 (W6 m ρ c))).trans (W6_of_ne m ρ c main_arg7 (by decide))).trans (Carry.keep2_main_arg7 (W4 m ρ c))).trans (W4_of_ne m ρ c main_arg7 (by decide))).trans (Carry.keep1_main_arg7 (W2 m ρ c))).trans (W2_of_ne m ρ c main_arg7 (by decide))).trans (Carry.keep0_main_arg7 (W0 m ρ c)))

/-! ### The aggregation stretch -/

/-- The aggregated messages are the reference's. -/
theorem V9_agg (c : Dev nD) : V9 m ρ c main_v78 = Cert.ReferenceIdeal.Read.val_main_v81 (F := Ideal) (x0 m c) (x1 m c) (x2 m c) (x3 m c) (x4 m c) (x5 m c) (x6 m c) := by
  show StableHlo.after hostOps4 (W8 m ρ c) (Proc.devRef .tc main_v78) = _
  after_results_simp
  rw [W8_v50 m ρ c, W8_v1 m ρ c, W8_v3 m ρ c, W8_v10 m ρ c]
  rfl
theorem V9_hw (c : Dev nD) : V9 m ρ c main_v50 = Cert.ReferenceIdeal.Read.val_main_v53 (F := Ideal) (x0 m c) (x1 m c) (x2 m c) (x3 m c) (x4 m c) (x5 m c) (x6 m c) :=
  (Carry.keep4_main_v50 (W8 m ρ c)).trans (W8_v50 m ρ c)
/-- The squared inverse root degrees as a column. -/
theorem V9_dcol (c : Dev nD) (r : Fin 100000) :
    (V9 m ρ c main_v80 : FVec Ideal S100000x1 .f32) (ix2 r (0 : Fin 1)) = (Cert.ReferenceIdeal.Read.val_main_v82 (F := Ideal) (x1 m c)) (ix1 r) := by
  have e : V9 m ρ c main_v80 = shapeCast S100000x1 (W8 m ρ c (Proc.devRef .tc main_v11) : FVec Ideal S100000 .f32) shapeCasts_S100000_S100000x1 := by
    show StableHlo.after hostOps4 (W8 m ρ c) (Proc.devRef .tc main_v80) = _
    after_results_simp <;> rfl
  rw [e, W8_v11 m ρ c]
  exact Bodies.shapeCast_vec_col_apply _ _ r (0 : Fin 1)
/-- The bias as a one-row matrix. -/
theorem V9_brow (c : Dev nD) (q : Fin 64) :
    (V9 m ρ c main_v79 : FVec Ideal S1x64 .f32) (ix2 (0 : Fin 1) q) = (x7 m c : FVec Ideal S64 .f32) (ix1 q) := by
  have e : V9 m ρ c main_v79 = shapeCast S1x64 (W8 m ρ c (Proc.devRef .tc main_arg7) : FVec Ideal S64 .f32) shapeCasts_S64_S1x64 := by
    show StableHlo.after hostOps4 (W8 m ρ c) (Proc.devRef .tc main_v79) = _
    after_results_simp <;> rfl
  rw [e, W8_arg7 m ρ c]
  exact shapeCast_a_1a_apply _ _ (0 : Fin 1) q

/-! ### The combine region -/

theorem W10_v81 (c : Dev nD) : W10 m ρ c (Proc.devRef .tc main_v81) = Cert.ReferenceIdeal.Read.val_main_v90 (F := Ideal) (x0 m c) (x1 m c) (x2 m c) (x3 m c) (x4 m c) (x5 m c) (x6 m c) (x7 m c) := by
  refine (W10_arr m ρ c 4).trans ?_
  rw [Region4.final (V9 m ρ) c, V9_agg m ρ c, V9_hw m ρ c]
  refine (Cert.RefLayers.selfLoopRelu_eq _ _ (Cert.ReferenceIdeal.Read.val_main_v82 (F := Ideal) (x1 m c)) (x7 m c) _ _ (V9_dcol m ρ c) (V9_brow m ρ c)).trans ?_
  rfl

/-! ### The next linear region -/

theorem V11_in (c : Dev nD) : V11 m ρ c main_v81 = Cert.ReferenceIdeal.Read.val_main_v90 (F := Ideal) (x0 m c) (x1 m c) (x2 m c) (x3 m c) (x4 m c) (x5 m c) (x6 m c) (x7 m c) :=
  (Carry.keep5_main_v81 (W10 m ρ c)).trans (W10_v81 m ρ c)
theorem V11_arg8 (c : Dev nD) : V11 m ρ c main_arg8 = x8 m c :=
  (((((((((((Carry.keep5_main_arg8 (W10 m ρ c)).trans (W10_of_ne m ρ c main_arg8 (by decide))).trans (Carry.keep4_main_arg8 (W8 m ρ c))).trans (W8_of_ne m ρ c main_arg8 (by decide))).trans (Carry.keep3_main_arg8 (W6 m ρ c))).trans (W6_of_ne m ρ c main_arg8 (by decide))).trans (Carry.keep2_main_arg8 (W4 m ρ c))).trans (W4_of_ne m ρ c main_arg8 (by decide))).trans (Carry.keep1_main_arg8 (W2 m ρ c))).trans (W2_of_ne m ρ c main_arg8 (by decide))).trans (Carry.keep0_main_arg8 (W0 m ρ c)))
/-- The zero bias row. -/
theorem V11_zrow (c : Dev nD) (q : Fin 64) :
    (V11 m ρ c main_v83 : FVec Ideal S1x64 .f32) (ix2 (0 : Fin 1) q) = Ideal.ofBits .f32 0x00000000#32 := by
  have e : V11 m ρ c main_v83 = shapeCast S1x64 (broadcastInDim S64 (![] : Fin 0 → Fin 1) bcast_S_S64 (constant (F := Ideal) S_ .f32 0x00000000#32)) shapeCasts_S64_S1x64 := by
    show StableHlo.after hostOps5 (W10 m ρ c) (Proc.devRef .tc main_v83) = _
    after_results_simp <;> rfl
  rw [e]
  exact (shapeCast_a_1a_apply _ _ (0 : Fin 1) q).trans rfl

theorem W12_v84 (c : Dev nD) : W12 m ρ c (Proc.devRef .tc main_v84) = Cert.ReferenceIdeal.Read.val_main_v91 (F := Ideal) (x0 m c) (x1 m c) (x2 m c) (x3 m c) (x4 m c) (x5 m c) (x6 m c) (x7 m c) (x8 m c) := by
  refine (W12_arr m ρ c 3).trans ?_
  rw [Region5.final (V11 m ρ) c, V11_in m ρ c, V11_arg8 m ρ c]
  exact Cert.RefLayers.affine64_zero_eq _ _ _ (V11_zrow m ρ c)

end Cert.KernelIdeal.Chain

end
-- ==== Proof.ChainD.lean ====
/-
  Layer 3 of the graph convolution. The stretch of host operations gathers the linear region's output along the
  edges, scales each message by the product of the two endpoints' inverse root degrees and adds the messages into
  their destination rows — the same operations, on the same operands, as the reference's, so the aggregated array is
  the reference's stage as it stands. The combine region then adds the self-loop term and the bias; the last region normalizes the rows.
-/
import proofs.«135448_j90589450207317_1_alg».proof.Proof.Gen.KernelIdeal.Frame
import proofs.«135448_j90589450207317_1_alg».proof.Proof.Region6
import proofs.«135448_j90589450207317_1_alg».proof.Proof.Region7
import proofs.«135448_j90589450207317_1_alg».proof.Proof.Carry
import proofs.«135448_j90589450207317_1_alg».proof.Proof.RefLayers
import proofs.«135448_j90589450207317_1_alg».proof.Proof.ChainC
import Idealize.ShloMosaic.Lib.StableHlo.Run
import Idealize.ShloMosaic.Lib.ValueLayout

set_option maxRecDepth 16384

noncomputable section

namespace Cert.KernelIdeal.Chain

open Cert.KernelIdeal Cert.KernelIdeal.Gen Cert.KernelIdeal.Layers
open Idealize.ShloMosaic Idealize.ShloMosaic.TcCoe Idealize.SL.Sem Idealize.ShloMosaic.ValueIdx Idealize.ShloMosaic.StableHlo

variable (m : (ℓ : Loc nD τ sig) → Buf (Elt Ideal) ℓ) (ρ : Dev nD → PrngReg)

/-! ### What the stretch reads, carried from where it was written -/

theorem W12_v1 (c : Dev nD) : W12 m ρ c (Proc.devRef .tc main_v1) = Cert.ReferenceIdeal.Read.val_main_v1 (F := Ideal) (x1 m c) :=
  (((((((((((W12_of_ne m ρ c main_v1 (by decide)).trans (Carry.keep5_main_v1 (W10 m ρ c))).trans (W10_of_ne m ρ c main_v1 (by decide))).trans (Carry.keep4_main_v1 (W8 m ρ c))).trans (W8_of_ne m ρ c main_v1 (by decide))).trans (Carry.keep3_main_v1 (W6 m ρ c))).trans (W6_of_ne m ρ c main_v1 (by decide))).trans (Carry.keep2_main_v1 (W4 m ρ c))).trans (W4_of_ne m ρ c main_v1 (by decide))).trans (Carry.keep1_main_v1 (W2 m ρ c))).trans (W2_of_ne m ρ c main_v1 (by decide))).trans (W1_v1 m ρ c)
theorem W12_v3 (c : Dev nD) : W12 m ρ c (Proc.devRef .tc main_v3) = Cert.ReferenceIdeal.Read.val_main_v3 (F := Ideal) (x1 m c) :=
  (((((((((((W12_of_ne m ρ c main_v3 (by decide)).trans (Carry.keep5_main_v3 (W10 m ρ c))).trans (W10_of_ne m ρ c main_v3 (by decide))).trans (Carry.keep4_main_v3 (W8 m ρ c))).trans (W8_of_ne m ρ c main_v3 (by decide))).trans (Carry.keep3_main_v3 (W6 m ρ c))).trans (W6_of_ne m ρ c main_v3 (by decide))).trans (Carry.keep2_main_v3 (W4 m ρ c))).trans (W4_of_ne m ρ c main_v3 (by decide))).trans (Carry.keep1_main_v3 (W2 m ρ c))).trans (W2_of_ne m ρ c main_v3 (by decide))).trans (W1_v3 m ρ c)
theorem W12_v10 (c : Dev nD) : W12 m ρ c (Proc.devRef .tc main_v10) = Cert.ReferenceIdeal.Read.val_main_v10 (F := Ideal) (x1 m c) :=
  (((((((((((W12_of_ne m ρ c main_v10 (by decide)).trans (Carry.keep5_main_v10 (W10 m ρ c))).trans (W10_of_ne m ρ c main_v10 (by decide))).trans (Carry.keep4_main_v10 (W8 m ρ c))).trans (W8_of_ne m ρ c main_v10 (by decide))).trans (Carry.keep3_main_v10 (W6 m ρ c))).trans (W6_of_ne m ρ c main_v10 (by decide))).trans (Carry.keep2_main_v10 (W4 m ρ c))).trans (W4_of_ne m ρ c main_v10 (by decide))).trans (Carry.keep1_main_v10 (W2 m ρ c))).trans (W2_of_ne m ρ c main_v10 (by decide))).trans (W1_v10 m ρ c)
theorem W12_v11 (c : Dev nD) : W12 m ρ c (Proc.devRef .tc main_v11) = Cert.ReferenceIdeal.Read.val_main_v44 (F := Ideal) (x1 m c) :=
  (((((((((((W12_of_ne m ρ c main_v11 (by decide)).trans (Carry.keep5_main_v11 (W10 m ρ c))).trans (W10_of_ne m ρ c main_v11 (by decide))).trans (Carry.keep4_main_v11 (W8 m ρ c))).trans (W8_of_ne m ρ c main_v11 (by decide))).trans (Carry.keep3_main_v11 (W6 m ρ c))).trans (W6_of_ne m ρ c main_v11 (by decide))).trans (Carry.keep2_main_v11 (W4 m ρ c))).trans (W4_of_ne m ρ c main_v11 (by decide))).trans (Carry.keep1_main_v11 (W2 m ρ c))).trans (W2_of_ne m ρ c main_v11 (by decide))).trans (W1_v11 m ρ c)
theorem W12_arg9 (c : Dev nD) : W12 m ρ c (Proc.devRef .tc main_arg9) = x9 m c :=
  ((((((((((((W12_of_ne m ρ c main_arg9 (by decide)).trans (Carry.keep5_main_arg9 (W10 m ρ c))).trans (W10_of_ne m ρ c main_arg9 (by decide))).trans (Carry.keep4_main_arg9 (W8 m ρ c))).trans (W8_of_ne m ρ c main_arg9 (by decide))).trans (Carry.keep3_main_arg9 (W6 m ρ c))).trans (W6_of_ne m ρ c main_arg9 (by decide))).trans (Carry.keep2_main_arg9 (W4 m ρ c))).trans (W4_of_ne m ρ c main_arg9 (by decide))).trans (Carry.keep1_main_arg9 (W2 m ρ c))).trans (W2_of_ne m ρ c main_arg9 (by decide))).trans (Carry.keep0_main_arg9 (W0 m ρ c)))

/-! ### The aggregation stretch -/

/-- The aggregated messages are the reference's. -/
theorem V13_agg (c : Dev nD) : V13 m ρ c main_v112 = Cert.ReferenceIdeal.Read.val_main_v119 (F := Ideal) (x0 m c) (x1 m c) (x2 m c) (x3 m c) (x4 m c) (x5 m c) (x6 m c) (x7 m c) (x8 m c) := by
  show StableHlo.after hostOps6 (W12 m ρ c) (Proc.devRef .tc main_v112) = _
  after_results_simp
  rw [W12_v84 m ρ c, W12_v1 m ρ c, W12_v3 m ρ c, W12_v10 m ρ c]
  rfl
theorem V13_hw (c : Dev nD) : V13 m ρ c main_v84 = Cert.ReferenceIdeal.Read.val_main_v91 (F := Ideal) (x0 m c) (x1 m c) (x2 m c) (x3 m c) (x4 m c) (x5 m c) (x6 m c) (x7 m c) (x8 m c) :=
  (Carry.keep6_main_v84 (W12 m ρ c)).trans (W12_v84 m ρ c)
/-- The squared inverse root degrees as a column. -/
theorem V13_dcol (c : Dev nD) (r : Fin 100000) :
    (V13 m ρ c main_v114 : FVec Ideal S100000x1 .f32) (ix2 r (0 : Fin 1)) = (Cert.ReferenceIdeal.Read.val_main_v120 (F := Ideal) (x1 m c)) (ix1 r) := by
  have e : V13 m ρ c main_v114 = shapeCast S100000x1 (W12 m ρ c (Proc.devRef .tc main_v11) : FVec Ideal S100000 .f32) shapeCasts_S100000_S100000x1 := by
    show StableHlo.after hostOps6 (W12 m ρ c) (Proc.devRef .tc main_v114) = _
    after_results_simp <;> rfl
  rw [e, W12_v11 m ρ c]
  exact Bodies.shapeCast_vec_col_apply _ _ r (0 : Fin 1)
/-- The bias as a one-row matrix. -/
theorem V13_brow (c : Dev nD) (q : Fin 64) :
    (V13 m ρ c main_v113 : FVec Ideal S1x64 .f32) (ix2 (0 : Fin 1) q) = (x9 m c : FVec Ideal S64 .f32) (ix1 q) := by
  have e : V13 m ρ c main_v113 = shapeCast S1x64 (W12 m ρ c (Proc.devRef .tc main_arg9) : FVec Ideal S64 .f32) shapeCasts_S64_S1x64 := by
    show StableHlo.after hostOps6 (W12 m ρ c) (Proc.devRef .tc main_v113) = _
    after_results_simp <;> rfl
  rw [e, W12_arg9 m ρ c]
  exact shapeCast_a_1a_apply _ _ (0 : Fin 1) q

/-! ### The combine region -/

theorem W14_v115 (c : Dev nD) : W14 m ρ c (Proc.devRef .tc main_v115) = Cert.ReferenceIdeal.Read.val_main_v127 (F := Ideal) (x0 m c) (x1 m c) (x2 m c) (x3 m c) (x4 m c) (x5 m c) (x6 m c) (x7 m c) (x8 m c) (x9 m c) := by
  refine (W14_arr m ρ c 4).trans ?_
  rw [Region6.final (V13 m ρ) c, V13_agg m ρ c, V13_hw m ρ c]
  refine (Cert.RefLayers.selfLoop_eq _ _ (Cert.ReferenceIdeal.Read.val_main_v120 (F := Ideal) (x1 m c)) (x9 m c) _ _ (V13_dcol m ρ c) (V13_brow m ρ c)).trans ?_
  rfl

/-! ### The last region: the rows scaled to unit length -/

theorem W15_v116 (c : Dev nD) : W15 m ρ c (Proc.devRef .tc main_v116) = Cert.ReferenceIdeal.Read.val_main_v132 (F := Ideal) (x0 m c) (x1 m c) (x2 m c) (x3 m c) (x4 m c) (x5 m c) (x6 m c) (x7 m c) (x8 m c) (x9 m c) := by
  refine (W15_arr m ρ c 1).trans ?_
  rw [Region7.final (V14 m ρ) c, show V14 m ρ c main_v115 = Cert.ReferenceIdeal.Read.val_main_v127 (F := Ideal) (x0 m c) (x1 m c) (x2 m c) (x3 m c) (x4 m c) (x5 m c) (x6 m c) (x7 m c) (x8 m c) (x9 m c) from W14_v115 m ρ c]
  refine (Cert.RefLayers.unitRows_eq _).trans ?_
  rfl

end Cert.KernelIdeal.Chain

end
-- ==== Proof.lean ====
/-
  A three-layer graph convolution with row normalization, computed two ways, gives the same array on the extended reals.

  Both programs first compute, by the same host operations, the edge endpoints, the node degrees (one plus the number
  of incoming edges), their inverse roots and, per layer, the aggregated messages: each edge carries the source node's
  features scaled by the product of the two endpoints' inverse root degrees, and the messages are added into their
  destination rows. The kernel program computes the dense parts in eight tiled regions: a linear layer `x·W + b`; then
  three times a linear layer with a zero bias row followed by a region that adds to the aggregated messages the node's
  own features times its squared inverse root degree and the bias (clamped at zero in the first two layers); finally
  each row is scaled by the reciprocal of its clamped Euclidean norm. The reference computes the same formulas with
  whole-array host operations, and divides by the clamped norm.

  Each region's output array is one function of the arrays it finds (blocks of 2000 rows cover the 100000 rows), and
  that function is the reference's at every entry: a sum in the extended reals does not depend on tiling or order,
  adding a zero bias changes nothing, and dividing by a nonzero number is multiplying by its inverse — the clamp is at
  least the positive float nearest 10⁻¹², hence not zero. No step needs an input to be finite. Stage by stage the kernel
  program's buffers are therefore the reference's stages as functions of the ten arguments, and the two results agree.

  The idealization rewrote nothing in the kernel, so the fourth conjunct is trivial; the three frames are the generated
  ones (the reference's frame is its generated run with the result dropped).
-/
import proofs.«135448_j90589450207317_1_alg».proof.Defs
import proofs.«135448_j90589450207317_1_alg».proof.Proof.Gen.Kernel
import proofs.«135448_j90589450207317_1_alg».proof.Proof.Gen.Kernel.Skeleton
import proofs.«135448_j90589450207317_1_alg».proof.Proof.Gen.Kernel.Launch
import proofs.«135448_j90589450207317_1_alg».proof.Proof.Gen.Kernel.Points
import proofs.«135448_j90589450207317_1_alg».proof.Proof.Gen.Kernel.Frame
import proofs.«135448_j90589450207317_1_alg».proof.Proof.Gen.KernelIdeal
import proofs.«135448_j90589450207317_1_alg».proof.Proof.Gen.KernelIdeal.Skeleton
import proofs.«135448_j90589450207317_1_alg».proof.Proof.Gen.KernelIdeal.Launch
import proofs.«135448_j90589450207317_1_alg».proof.Proof.Gen.KernelIdeal.Points
import proofs.«135448_j90589450207317_1_alg».proof.Proof.Gen.KernelIdeal.Frame
import proofs.«135448_j90589450207317_1_alg».proof.Proof.Gen.ReferenceIdeal
import proofs.«135448_j90589450207317_1_alg».proof.Proof.Gen.ReferenceIdeal.Run
import proofs.«135448_j90589450207317_1_alg».proof.Proof.Gen.ReferenceIdeal.Read
import proofs.«135448_j90589450207317_1_alg».proof.Proof.Gen.Pre_finite_inputs
import proofs.«135448_j90589450207317_1_alg».proof.Proof.KernelRun
import proofs.«135448_j90589450207317_1_alg».proof.Proof.ChainD
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the result array at the reference's last stage, as a function of the arguments; the
    arguments agree, so the results do. -/
theorem algebraic : Cert.algebraic_KernelIdeal_ReferenceIdeal := by
  intro m ρ m' ρ' _ hagree
  refine ⟨fun c => Cert.ReferenceIdeal.Read.val_main_v132 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.Chain.W15_v116 m ρ c), (h c).2⟩)
      (Cert.KernelIdeal.Whole.run_result m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9⟩ := hagree c
    rw [Cert.ReferenceIdeal.Read.val_main_v132_eq, e0, e1, e2, e3, e4, e5, e6, e7, e8, e9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
